-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S2000000x17 : Shape := ⟨2, ![2000000, 17]⟩
abbrev S17x2000000 : Shape := ⟨2, ![17, 2000000]⟩
abbrev S17x15625x128 : Shape := ⟨3, ![17, 15625, 128]⟩
abbrev S_ : Shape := ⟨0, ![]⟩
abbrev S17x16000x128 : Shape := ⟨3, ![17, 16000, 128]⟩
abbrev S6x16000x128 : Shape := ⟨3, ![6, 16000, 128]⟩
abbrev S17x1000x128 : Shape := ⟨3, ![17, 1000, 128]⟩
abbrev S6x1000x128 : Shape := ⟨3, ![6, 1000, 128]⟩
abbrev S1000x128 : Shape := ⟨2, ![1000, 128]⟩
abbrev S1x1000x128 : Shape := ⟨3, ![1, 1000, 128]⟩
abbrev S6x15625x128 : Shape := ⟨3, ![6, 15625, 128]⟩
abbrev S6x2000000 : Shape := ⟨2, ![6, 2000000]⟩
abbrev S2000000x6 : Shape := ⟨2, ![2000000, 6]⟩

abbrev nBuf : Space → Nat
  | .hbm => 11
  | .vmem => 4
  | .smem => 0
  | _ => 0

abbrev bufTy : (tb : Table) → Fin (tcTables nBuf tb) → BufTy
  | .hbm, ⟨0, _⟩ => ⟨S2000000x64, .f32⟩
  | .hbm, ⟨1, _⟩ => ⟨S2000000x17, .f32⟩
  | .hbm, ⟨2, _⟩ => ⟨S17x2000000, .f32⟩
  | .hbm, ⟨3, _⟩ => ⟨S17x15625x128, .f32⟩
  | .hbm, ⟨4, _⟩ => ⟨S_, .i32⟩
  | .hbm, ⟨5, _⟩ => ⟨S_, .f32⟩
  | .hbm, ⟨6, _⟩ => ⟨S17x16000x128, .f32⟩
  | .hbm, ⟨7, _⟩ => ⟨S6x16000x128, .f32⟩
  | .hbm, ⟨8, _⟩ => ⟨S6x15625x128, .f32⟩
  | .hbm, ⟨9, _⟩ => ⟨S6x2000000, .f32⟩
  | .hbm, ⟨10, _⟩ => ⟨S2000000x6, .f32⟩
  | .local _ .vmem, ⟨0, _⟩ => ⟨S17x1000x128, .f32⟩
  | .local _ .vmem, ⟨1, _⟩ => ⟨S17x1000x128, .f32⟩
  | .local _ .vmem, ⟨2, _⟩ => ⟨S6x1000x128, .f32⟩
  | .local _ .vmem, ⟨3, _⟩ => ⟨S6x1000x128, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S17x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2000000x64_S2000000x17_0_1 : S2000000x64.Slices ![0, 1] S2000000x17
  transposes_S2000000x17_S17x2000000_1_0 : S2000000x17.Transposes [1, 0] S17x2000000
  shapeCasts_S17x2000000_S17x15625x128 : S17x2000000.ShapeCasts S17x15625x128
  pads_S17x15625x128_S17x16000x128_000_03750_000 : S17x15625x128.Pads (![0, 0, 0] : Fin 3 → Nat) ![0, 375, 0] ![0, 0, 0] S17x16000x128
  h_S_ : 0 < S_.numel
  inb_S17x1000x128_S17x1000x128_0_0_0 : ∀ a, (![0, 0, 0] : Fin 3 → Nat) a + S17x1000x128.size a ≤ S17x1000x128.size a
  h_S17x1000x128 : 0 < S17x1000x128.numel
  shapeCasts_S17x1000x128_S17x1000x128 : S17x1000x128.ShapeCasts S17x1000x128
  bitsLt_bf16_f32 : FTy.bits .bf16 < FTy.bits .f32
  slices_S17x1000x128_o0_0_0_S1x1000x128 : S17x1000x128.Slices ![0, 0, 0] S1x1000x128
  shapeCasts_S1x1000x128_S1000x128 : S1x1000x128.ShapeCasts S1000x128
  slices_S17x1000x128_o1_0_0_S1x1000x128 : S17x1000x128.Slices ![1, 0, 0] S1x1000x128
  slices_S17x1000x128_o2_0_0_S1x1000x128 : S17x1000x128.Slices ![2, 0, 0] S1x1000x128
  slices_S17x1000x128_o3_0_0_S1x1000x128 : S17x1000x128.Slices ![3, 0, 0] S1x1000x128
  slices_S17x1000x128_o4_0_0_S1x1000x128 : S17x1000x128.Slices ![4, 0, 0] S1x1000x128
  slices_S17x1000x128_o5_0_0_S1x1000x128 : S17x1000x128.Slices ![5, 0, 0] S1x1000x128
  slices_S17x1000x128_o6_0_0_S1x1000x128 : S17x1000x128.Slices ![6, 0, 0] S1x1000x128
  slices_S17x1000x128_o7_0_0_S1x1000x128 : S17x1000x128.Slices ![7, 0, 0] S1x1000x128
  slices_S17x1000x128_o8_0_0_S1x1000x128 : S17x1000x128.Slices ![8, 0, 0] S1x1000x128
  slices_S17x1000x128_o9_0_0_S1x1000x128 : S17x1000x128.Slices ![9, 0, 0] S1x1000x128
  slices_S17x1000x128_o10_0_0_S1x1000x128 : S17x1000x128.Slices ![10, 0, 0] S1x1000x128
  slices_S17x1000x128_o11_0_0_S1x1000x128 : S17x1000x128.Slices ![11, 0, 0] S1x1000x128
  slices_S17x1000x128_o12_0_0_S1x1000x128 : S17x1000x128.Slices ![12, 0, 0] S1x1000x128
  slices_S17x1000x128_o13_0_0_S1x1000x128 : S17x1000x128.Slices ![13, 0, 0] S1x1000x128
  slices_S17x1000x128_o14_0_0_S1x1000x128 : S17x1000x128.Slices ![14, 0, 0] S1x1000x128
  slices_S17x1000x128_o15_0_0_S1x1000x128 : S17x1000x128.Slices ![15, 0, 0] S1x1000x128
  shapeCasts_S1000x128_S1x1000x128 : S1000x128.ShapeCasts S1x1000x128
  concatenates_S1x1000x128_S1x1000x128_S1x1000x128_S1x1000x128_S1x1000x128_S1x1000x128_S6x1000x128_d0 : Shape.Concatenates [S1x1000x128, S1x1000x128, S1x1000x128, S1x1000x128, S1x1000x128, S1x1000x128] S6x1000x128 0
  inb_S6x1000x128_S6x1000x128_0_0_0 : ∀ a, (![0, 0, 0] : Fin 3 → Nat) a + S6x1000x128.size a ≤ S6x1000x128.size a
  h_S6x1000x128 : 0 < S6x1000x128.numel
  slices_S6x16000x128_S6x15625x128_0_0_0 : S6x16000x128.Slices ![0, 0, 0] S6x15625x128
  shapeCasts_S6x15625x128_S6x2000000 : S6x15625x128.ShapeCasts S6x2000000
  transposes_S6x2000000_S2000000x6_1_0 : S6x2000000.Transposes [1, 0] S2000000x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S17x1000x128.size a ≤ S17x16000x128.size a
  hwx0_0 : ∀ i : grid0.Coords, EltTy.bits .f32 = 32 ∨ (Rect.block (s := S17x16000x128) S17x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x1000x128.size a ≤ S6x16000x128.size a
  hwx0_1 : ∀ i : grid0.Coords, EltTy.bits .f32 = 32 ∨ (Rect.block (s := S6x16000x128) S6x1000x128.size (cc0_transform_1 i) (hinb0_1 i)).WholeWords (EltTy.packing .f32)

variable [Facts₀]

abbrev win0_0 : Pipeline.Window sig grid0 :=
  Pipeline.Window.ofSpec (Memref.whole main_v3) S17x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6x1000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S_ : Shape := ⟨0, ![]⟩
abbrev S2000000x1 : Shape := ⟨2, ![2000000, 1]⟩
abbrev S2000000x11 : Shape := ⟨2, ![2000000, 11]⟩
abbrev S2000000x6 : Shape := ⟨2, ![2000000, 6]⟩

abbrev nBuf : Space → Nat
  | .hbm => 378
  | .vmem => 0
  | .smem => 0
  | _ => 0

abbrev hbmTy0_0 (i : Nat) : BufTy := match i % 128 with
  | 0 => ⟨S2000000x64, .f32⟩
  | 1 => ⟨S_, .f32⟩
  | 2 => ⟨S2000000x1, .f32⟩
  | 3 => ⟨S2000000x11, .f32⟩
  | 4 => ⟨S2000000x11, .f32⟩
  | 5 => ⟨S2000000x1, .f32⟩
  | 6 => ⟨S_, .f32⟩
  | 7 => ⟨S2000000x1, .f32⟩
  | 8 => ⟨S2000000x1, .f32⟩
  | 9 => ⟨S_, .f32⟩
  | 10 => ⟨S2000000x1, .f32⟩
  | 11 => ⟨S2000000x1, .f32⟩
  | 12 => ⟨S_, .f32⟩
  | 13 => ⟨S2000000x1, .f32⟩
  | 14 => ⟨S2000000x1, .f32⟩
  | 15 => ⟨S2000000x1, .f32⟩
  | 16 => ⟨S2000000x1, .f32⟩
  | 17 => ⟨S_, .f32⟩
  | 18 => ⟨S2000000x1, .f32⟩
  | 19 => ⟨S2000000x1, .f32⟩
  | 20 => ⟨S2000000x1, .f32⟩
  | 21 => ⟨S2000000x1, .f32⟩
  | 22 => ⟨S_, .f32⟩
  | 23 => ⟨S2000000x1, .f32⟩
  | 24 => ⟨S2000000x1, .f32⟩
  | 25 => ⟨S2000000x1, .f32⟩
  | 26 => ⟨S2000000x1, .f32⟩
  | 27 => ⟨S2000000x1, .f32⟩
  | 28 => ⟨S_, .f32⟩
  | 29 => ⟨S2000000x1, .f32⟩
  | 30 => ⟨S2000000x1, .f32⟩
  | 31 => ⟨S_, .f32⟩
  | 32 => ⟨S2000000x1, .f32⟩
  | 33 => ⟨S2000000x1, .f32⟩
  | 34 => ⟨S_, .f32⟩
  | 35 => ⟨S2000000x1, .f32⟩
  | 36 => ⟨S2000000x1, .f32⟩
  | 37 => ⟨S2000000x1, .f32⟩
  | 38 => ⟨S2000000x1, .f32⟩
  | 39 => ⟨S_, .f32⟩
  | 40 => ⟨S2000000x1, .f32⟩
  | 41 => ⟨S2000000x1, .f32⟩
  | 42 => ⟨S2000000x1, .f32⟩
  | 43 => ⟨S2000000x1, .f32⟩
  | 44 => ⟨S_, .f32⟩
  | 45 => ⟨S2000000x1, .f32⟩
  | 46 => ⟨S2000000x1, .f32⟩
  | 47 => ⟨S2000000x1, .f32⟩
  | 48 => ⟨S2000000x1, .f32⟩
  | 49 => ⟨S2000000x1, .f32⟩
  | 50 => ⟨S_, .f32⟩
  | 51 => ⟨S2000000x1, .f32⟩
  | 52 => ⟨S2000000x1, .f32⟩
  | 53 => ⟨S_, .f32⟩
  | 54 => ⟨S2000000x1, .f32⟩
  | 55 => ⟨S2000000x1, .f32⟩
  | 56 => ⟨S_, .f32⟩
  | 57 => ⟨S2000000x1, .f32⟩
  | 58 => ⟨S2000000x1, .f32⟩
  | 59 => ⟨S2000000x1, .f32⟩
  | 60 => ⟨S2000000x1, .f32⟩
  | 61 => ⟨S_, .f32⟩
  | 62 => ⟨S2000000x1, .f32⟩
  | 63 => ⟨S2000000x1, .f32⟩
  | 64 => ⟨S2000000x1, .f32⟩
  | 65 => ⟨S2000000x1, .f32⟩
  | 66 => ⟨S_, .f32⟩
  | 67 => ⟨S2000000x1, .f32⟩
  | 68 => ⟨S2000000x1, .f32⟩
  | 69 => ⟨S2000000x1, .f32⟩
  | 70 => ⟨S2000000x1, .f32⟩
  | 71 => ⟨S2000000x1, .f32⟩
  | 72 => ⟨S_, .f32⟩
  | 73 => ⟨S2000000x1, .f32⟩
  | 74 => ⟨S2000000x1, .f32⟩
  | 75 => ⟨S_, .f32⟩
  | 76 => ⟨S2000000x1, .f32⟩
  | 77 => ⟨S2000000x1, .f32⟩
  | 78 => ⟨S_, .f32⟩
  | 79 => ⟨S2000000x1, .f32⟩
  | 80 => ⟨S2000000x1, .f32⟩
  | 81 => ⟨S2000000x1, .f32⟩
  | 82 => ⟨S2000000x1, .f32⟩
  | 83 => ⟨S_, .f32⟩
  | 84 => ⟨S2000000x1, .f32⟩
  | 85 => ⟨S2000000x1, .f32⟩
  | 86 => ⟨S2000000x1, .f32⟩
  | 87 => ⟨S2000000x1, .f32⟩
  | 88 => ⟨S_, .f32⟩
  | 89 => ⟨S2000000x1, .f32⟩
  | 90 => ⟨S2000000x1, .f32⟩
  | 91 => ⟨S2000000x1, .f32⟩
  | 92 => ⟨S2000000x1, .f32⟩
  | 93 => ⟨S2000000x1, .f32⟩
  | 94 => ⟨S_, .f32⟩
  | 95 => ⟨S2000000x1, .f32⟩
  | 96 => ⟨S2000000x1, .f32⟩
  | 97 => ⟨S_, .f32⟩
  | 98 => ⟨S2000000x1, .f32⟩
  | 99 => ⟨S2000000x1, .f32⟩
  | 100 => ⟨S_, .f32⟩
  | 101 => ⟨S2000000x1, .f32⟩
  | 102 => ⟨S2000000x1, .f32⟩
  | 103 => ⟨S2000000x1, .f32⟩
  | 104 => ⟨S2000000x1, .f32⟩
  | 105 => ⟨S_, .f32⟩
  | 106 => ⟨S2000000x1, .f32⟩
  | 107 => ⟨S2000000x1, .f32⟩
  | 108 => ⟨S2000000x1, .f32⟩
  | 109 => ⟨S2000000x1, .f32⟩
  | 110 => ⟨S_, .f32⟩
  | 111 => ⟨S2000000x1, .f32⟩
  | 112 => ⟨S2000000x1, .f32⟩
  | 113 => ⟨S2000000x1, .f32⟩
  | 114 => ⟨S2000000x1, .f32⟩
  | 115 => ⟨S2000000x1, .f32⟩
  | 116 => ⟨S_, .f32⟩
  | 117 => ⟨S2000000x1, .f32⟩
  | 118 => ⟨S2000000x1, .f32⟩
  | 119 => ⟨S_, .f32⟩
  | 120 => ⟨S2000000x1, .f32⟩
  | 121 => ⟨S2000000x1, .f32⟩
  | 122 => ⟨S_, .f32⟩
  | 123 => ⟨S2000000x1, .f32⟩
  | 124 => ⟨S2000000x1, .f32⟩
  | 125 => ⟨S2000000x1, .f32⟩
  | 126 => ⟨S2000000x1, .f32⟩
  | 127 => ⟨S_, .f32⟩
  | _ => ⟨S2000000x64, .f32⟩

abbrev hbmTy0_1 (i : Nat) : BufTy := match i % 128 with
  | 0 => ⟨S2000000x1, .f32⟩
  | 1 => ⟨S2000000x1, .f32⟩
  | 2 => ⟨S2000000x1, .f32⟩
  | 3 => ⟨S2000000x1, .f32⟩
  | 4 => ⟨S_, .f32⟩
  | 5 => ⟨S2000000x1, .f32⟩
  | 6 => ⟨S2000000x1, .f32⟩
  | 7 => ⟨S2000000x1, .f32⟩
  | 8 => ⟨S2000000x1, .f32⟩
  | 9 => ⟨S2000000x1, .f32⟩
  | 10 => ⟨S_, .f32⟩
  | 11 => ⟨S2000000x1, .f32⟩
  | 12 => ⟨S2000000x1, .f32⟩
  | 13 => ⟨S_, .f32⟩
  | 14 => ⟨S2000000x1, .f32⟩
  | 15 => ⟨S2000000x1, .f32⟩
  | 16 => ⟨S_, .f32⟩
  | 17 => ⟨S2000000x1, .f32⟩
  | 18 => ⟨S2000000x1, .f32⟩
  | 19 => ⟨S2000000x1, .f32⟩
  | 20 => ⟨S2000000x1, .f32⟩
  | 21 => ⟨S_, .f32⟩
  | 22 => ⟨S2000000x1, .f32⟩
  | 23 => ⟨S2000000x1, .f32⟩
  | 24 => ⟨S2000000x1, .f32⟩
  | 25 => ⟨S2000000x1, .f32⟩
  | 26 => ⟨S_, .f32⟩
  | 27 => ⟨S2000000x1, .f32⟩
  | 28 => ⟨S2000000x1, .f32⟩
  | 29 => ⟨S2000000x1, .f32⟩
  | 30 => ⟨S2000000x1, .f32⟩
  | 31 => ⟨S2000000x1, .f32⟩
  | 32 => ⟨S_, .f32⟩
  | 33 => ⟨S2000000x1, .f32⟩
  | 34 => ⟨S2000000x1, .f32⟩
  | 35 => ⟨S_, .f32⟩
  | 36 => ⟨S2000000x1, .f32⟩
  | 37 => ⟨S2000000x1, .f32⟩
  | 38 => ⟨S_, .f32⟩
  | 39 => ⟨S2000000x1, .f32⟩
  | 40 => ⟨S2000000x1, .f32⟩
  | 41 => ⟨S2000000x1, .f32⟩
  | 42 => ⟨S2000000x1, .f32⟩
  | 43 => ⟨S_, .f32⟩
  | 44 => ⟨S2000000x1, .f32⟩
  | 45 => ⟨S2000000x1, .f32⟩
  | 46 => ⟨S2000000x1, .f32⟩
  | 47 => ⟨S2000000x1, .f32⟩
  | 48 => ⟨S_, .f32⟩
  | 49 => ⟨S2000000x1, .f32⟩
  | 50 => ⟨S2000000x1, .f32⟩
  | 51 => ⟨S2000000x1, .f32⟩
  | 52 => ⟨S2000000x1, .f32⟩
  | 53 => ⟨S2000000x1, .f32⟩
  | 54 => ⟨S_, .f32⟩
  | 55 => ⟨S2000000x1, .f32⟩
  | 56 => ⟨S2000000x1, .f32⟩
  | 57 => ⟨S_, .f32⟩
  | 58 => ⟨S2000000x1, .f32⟩
  | 59 => ⟨S2000000x1, .f32⟩
  | 60 => ⟨S_, .f32⟩
  | 61 => ⟨S2000000x1, .f32⟩
  | 62 => ⟨S2000000x1, .f32⟩
  | 63 => ⟨S2000000x1, .f32⟩
  | 64 => ⟨S2000000x1, .f32⟩
  | 65 => ⟨S_, .f32⟩
  | 66 => ⟨S2000000x1, .f32⟩
  | 67 => ⟨S2000000x1, .f32⟩
  | 68 => ⟨S2000000x1, .f32⟩
  | 69 => ⟨S2000000x1, .f32⟩
  | 70 => ⟨S_, .f32⟩
  | 71 => ⟨S2000000x1, .f32⟩
  | 72 => ⟨S2000000x1, .f32⟩
  | 73 => ⟨S2000000x1, .f32⟩
  | 74 => ⟨S2000000x1, .f32⟩
  | 75 => ⟨S2000000x1, .f32⟩
  | 76 => ⟨S_, .f32⟩
  | 77 => ⟨S2000000x1, .f32⟩
  | 78 => ⟨S2000000x1, .f32⟩
  | 79 => ⟨S_, .f32⟩
  | 80 => ⟨S2000000x1, .f32⟩
  | 81 => ⟨S2000000x1, .f32⟩
  | 82 => ⟨S_, .f32⟩
  | 83 => ⟨S2000000x1, .f32⟩
  | 84 => ⟨S2000000x1, .f32⟩
  | 85 => ⟨S2000000x1, .f32⟩
  | 86 => ⟨S2000000x1, .f32⟩
  | 87 => ⟨S_, .f32⟩
  | 88 => ⟨S2000000x1, .f32⟩
  | 89 => ⟨S2000000x1, .f32⟩
  | 90 => ⟨S2000000x1, .f32⟩
  | 91 => ⟨S2000000x1, .f32⟩
  | 92 => ⟨S_, .f32⟩
  | 93 => ⟨S2000000x1, .f32⟩
  | 94 => ⟨S2000000x1, .f32⟩
  | 95 => ⟨S2000000x1, .f32⟩
  | 96 => ⟨S2000000x1, .f32⟩
  | 97 => ⟨S2000000x1, .f32⟩
  | 98 => ⟨S_, .f32⟩
  | 99 => ⟨S2000000x1, .f32⟩
  | 100 => ⟨S2000000x1, .f32⟩
  | 101 => ⟨S_, .f32⟩
  | 102 => ⟨S2000000x1, .f32⟩
  | 103 => ⟨S2000000x1, .f32⟩
  | 104 => ⟨S_, .f32⟩
  | 105 => ⟨S2000000x1, .f32⟩
  | 106 => ⟨S2000000x1, .f32⟩
  | 107 => ⟨S2000000x1, .f32⟩
  | 108 => ⟨S2000000x1, .f32⟩
  | 109 => ⟨S_, .f32⟩
  | 110 => ⟨S2000000x1, .f32⟩
  | 111 => ⟨S2000000x1, .f32⟩
  | 112 => ⟨S2000000x1, .f32⟩
  | 113 => ⟨S2000000x1, .f32⟩
  | 114 => ⟨S_, .f32⟩
  | 115 => ⟨S2000000x1, .f32⟩
  | 116 => ⟨S2000000x1, .f32⟩
  | 117 => ⟨S2000000x1, .f32⟩
  | 118 => ⟨S2000000x1, .f32⟩
  | 119 => ⟨S_, .f32⟩
  | 120 => ⟨S2000000x1, .f32⟩
  | 121 => ⟨S2000000x1, .f32⟩
  | 122 => ⟨S_, .f32⟩
  | 123 => ⟨S2000000x1, .f32⟩
  | 124 => ⟨S2000000x1, .f32⟩
  | 125 => ⟨S_, .f32⟩
  | 126 => ⟨S2000000x1, .f32⟩
  | 127 => ⟨S2000000x1, .f32⟩
  | _ => ⟨S2000000x64, .f32⟩

abbrev hbmTy0_2 (i : Nat) : BufTy := match i % 128 with
  | 0 => ⟨S_, .f32⟩
  | 1 => ⟨S2000000x1, .f32⟩
  | 2 => ⟨S2000000x1, .f32⟩
  | 3 => ⟨S_, .f32⟩
  | 4 => ⟨S2000000x1, .f32⟩
  | 5 => ⟨S2000000x1, .f32⟩
  | 6 => ⟨S_, .f32⟩
  | 7 => ⟨S2000000x1, .f32⟩
  | 8 => ⟨S2000000x1, .f32⟩
  | 9 => ⟨S_, .f32⟩
  | 10 => ⟨S2000000x1, .f32⟩
  | 11 => ⟨S2000000x1, .f32⟩
  | 12 => ⟨S_, .f32⟩
  | 13 => ⟨S2000000x1, .f32⟩
  | 14 => ⟨S2000000x1, .f32⟩
  | 15 => ⟨S_, .f32⟩
  | 16 => ⟨S2000000x1, .f32⟩
  | 17 => ⟨S2000000x1, .f32⟩
  | 18 => ⟨S_, .f32⟩
  | 19 => ⟨S2000000x1, .f32⟩
  | 20 => ⟨S2000000x1, .f32⟩
  | 21 => ⟨S_, .f32⟩
  | 22 => ⟨S2000000x1, .f32⟩
  | 23 => ⟨S2000000x1, .f32⟩
  | 24 => ⟨S2000000x1, .f32⟩
  | 25 => ⟨S2000000x1, .f32⟩
  | 26 => ⟨S2000000x1, .f32⟩
  | 27 => ⟨S2000000x1, .f32⟩
  | 28 => ⟨S2000000x1, .f32⟩
  | 29 => ⟨S2000000x1, .f32⟩
  | 30 => ⟨S2000000x1, .f32⟩
  | 31 => ⟨S2000000x1, .f32⟩
  | 32 => ⟨S2000000x1, .f32⟩
  | 33 => ⟨S2000000x1, .f32⟩
  | 34 => ⟨S2000000x1, .f32⟩
  | 35 => ⟨S2000000x1, .f32⟩
  | 36 => ⟨S2000000x1, .f32⟩
  | 37 => ⟨S2000000x1, .f32⟩
  | 38 => ⟨S2000000x1, .f32⟩
  | 39 => ⟨S2000000x1, .f32⟩
  | 40 => ⟨S2000000x1, .f32⟩
  | 41 => ⟨S2000000x1, .f32⟩
  | 42 => ⟨S2000000x1, .f32⟩
  | 43 => ⟨S2000000x1, .f32⟩
  | 44 => ⟨S2000000x1, .f32⟩
  | 45 => ⟨S2000000x1, .f32⟩
  | 46 => ⟨S2000000x1, .f32⟩
  | 47 => ⟨S2000000x1, .f32⟩
  | 48 => ⟨S2000000x1, .f32⟩
  | 49 => ⟨S2000000x1, .f32⟩
  | 50 => ⟨S2000000x1, .f32⟩
  | 51 => ⟨S2000000x1, .f32⟩
  | 52 => ⟨S2000000x1, .f32⟩
  | 53 => ⟨S2000000x1, .f32⟩
  | 54 => ⟨S2000000x1, .f32⟩
  | 55 => ⟨S2000000x1, .f32⟩
  | 56 => ⟨S2000000x1, .f32⟩
  | 57 => ⟨S2000000x1, .f32⟩
  | 58 => ⟨S2000000x1, .f32⟩
  | 59 => ⟨S2000000x1, .f32⟩
  | 60 => ⟨S2000000x1, .f32⟩
  | 61 => ⟨S2000000x1, .f32⟩
  | 62 => ⟨S2000000x1, .f32⟩
  | 63 => ⟨S2000000x1, .f32⟩
  | 64 => ⟨S2000000x1, .f32⟩
  | 65 => ⟨S2000000x1, .f32⟩
  | 66 => ⟨S2000000x1, .f32⟩
  | 67 => ⟨S2000000x1, .f32⟩
  | 68 => ⟨S2000000x1, .f32⟩
  | 69 => ⟨S2000000x1, .f32⟩
  | 70 => ⟨S2000000x1, .f32⟩
  | 71 => ⟨S2000000x1, .f32⟩
  | 72 => ⟨S2000000x1, .f32⟩
  | 73 => ⟨S2000000x1, .f32⟩
  | 74 => ⟨S2000000x1, .f32⟩
  | 75 => ⟨S2000000x1, .f32⟩
  | 76 => ⟨S2000000x1, .f32⟩
  | 77 => ⟨S2000000x1, .f32⟩
  | 78 => ⟨S2000000x1, .f32⟩
  | 79 => ⟨S2000000x1, .f32⟩
  | 80 => ⟨S2000000x1, .f32⟩
  | 81 => ⟨S2000000x1, .f32⟩
  | 82 => ⟨S2000000x1, .f32⟩
  | 83 => ⟨S2000000x1, .f32⟩
  | 84 => ⟨S2000000x1, .f32⟩
  | 85 => ⟨S2000000x1, .f32⟩
  | 86 => ⟨S2000000x1, .f32⟩
  | 87 => ⟨S2000000x1, .f32⟩
  | 88 => ⟨S2000000x1, .f32⟩
  | 89 => ⟨S2000000x1, .f32⟩
  | 90 => ⟨S2000000x1, .f32⟩
  | 91 => ⟨S2000000x1, .f32⟩
  | 92 => ⟨S2000000x1, .f32⟩
  | 93 => ⟨S2000000x1, .f32⟩
  | 94 => ⟨S2000000x1, .f32⟩
  | 95 => ⟨S2000000x1, .f32⟩
  | 96 => ⟨S2000000x1, .f32⟩
  | 97 => ⟨S2000000x1, .f32⟩
  | 98 => ⟨S2000000x1, .f32⟩
  | 99 => ⟨S2000000x1, .f32⟩
  | 100 => ⟨S2000000x1, .f32⟩
  | 101 => ⟨S2000000x1, .f32⟩
  | 102 => ⟨S2000000x1, .f32⟩
  | 103 => ⟨S2000000x1, .f32⟩
  | 104 => ⟨S2000000x1, .f32⟩
  | 105 => ⟨S2000000x1, .f32⟩
  | 106 => ⟨S2000000x1, .f32⟩
  | 107 => ⟨S2000000x1, .f32⟩
  | 108 => ⟨S2000000x1, .f32⟩
  | 109 => ⟨S2000000x1, .f32⟩
  | 110 => ⟨S2000000x1, .f32⟩
  | 111 => ⟨S2000000x1, .f32⟩
  | 112 => ⟨S2000000x1, .f32⟩
  | 113 => ⟨S2000000x1, .f32⟩
  | 114 => ⟨S2000000x1, .f32⟩
  | 115 => ⟨S2000000x1, .f32⟩
  | 116 => ⟨S2000000x1, .f32⟩
  | 117 => ⟨S2000000x1, .f32⟩
  | 118 => ⟨S2000000x1, .f32⟩
  | 119 => ⟨S2000000x1, .f32⟩
  | 120 => ⟨S2000000x1, .f32⟩
  | 121 => ⟨S2000000x6, .f32⟩
  | _ => ⟨S2000000x64, .f32⟩

abbrev hbmTy (i : Nat) : BufTy := match i / 128 with
  | 0 => hbmTy0_0 i
  | 1 => hbmTy0_1 i
  | 2 => hbmTy0_2 i
  | _ => ⟨S2000000x64, .f32⟩

abbrev bufTy : (tb : Table) → Fin (tcTables nBuf tb) → BufTy
  | .hbm, ⟨i, _⟩ => hbmTy i
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_9 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_10 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_13 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_15 : Ref sig .tc := ⟨.hbm, 72, rfl⟩
abbrev main_v55 : Ref sig .tc := ⟨.hbm, 73, rfl⟩
abbrev main_v56 : Ref sig .tc := ⟨.hbm, 74, rfl⟩
abbrev main_cst_16 : Ref sig .tc := ⟨.hbm, 75, rfl⟩
abbrev main_v57 : Ref sig .tc := ⟨.hbm, 76, rfl⟩
abbrev main_v58 : Ref sig .tc := ⟨.hbm, 77, rfl⟩
abbrev main_cst_17 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_18 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_19 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_20 : Ref sig .tc := ⟨.hbm, 94, rfl⟩
abbrev main_v72 : Ref sig .tc := ⟨.hbm, 95, rfl⟩
abbrev main_v73 : Ref sig .tc := ⟨.hbm, 96, rfl⟩
abbrev main_cst_21 : Ref sig .tc := ⟨.hbm, 97, rfl⟩
abbrev main_v74 : Ref sig .tc := ⟨.hbm, 98, rfl⟩
abbrev main_v75 : Ref sig .tc := ⟨.hbm, 99, rfl⟩
abbrev main_cst_22 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_23 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_24 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_25 : Ref sig .tc := ⟨.hbm, 116, rfl⟩
abbrev main_v89 : Ref sig .tc := ⟨.hbm, 117, rfl⟩
abbrev main_v90 : Ref sig .tc := ⟨.hbm, 118, rfl⟩
abbrev main_cst_26 : Ref sig .tc := ⟨.hbm, 119, rfl⟩
abbrev main_v91 : Ref sig .tc := ⟨.hbm, 120, rfl⟩
abbrev main_v92 : Ref sig .tc := ⟨.hbm, 121, rfl⟩
abbrev main_cst_27 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_28 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_29 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_30 : Ref sig .tc := ⟨.hbm, 138, rfl⟩
abbrev main_v106 : Ref sig .tc := ⟨.hbm, 139, rfl⟩
abbrev main_v107 : Ref sig .tc := ⟨.hbm, 140, rfl⟩
abbrev main_cst_31 : Ref sig .tc := ⟨.hbm, 141, rfl⟩
abbrev main_v108 : Ref sig .tc := ⟨.hbm, 142, rfl⟩
abbrev main_v109 : Ref sig .tc := ⟨.hbm, 143, rfl⟩
abbrev main_cst_32 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_33 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_34 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_35 : Ref sig .tc := ⟨.hbm, 160, rfl⟩
abbrev main_v123 : Ref sig .tc := ⟨.hbm, 161, rfl⟩
abbrev main_v124 : Ref sig .tc := ⟨.hbm, 162, rfl⟩
abbrev main_cst_36 : Ref sig .tc := ⟨.hbm, 163, rfl⟩
abbrev main_v125 : Ref sig .tc := ⟨.hbm, 164, rfl⟩
abbrev main_v126 : Ref sig .tc := ⟨.hbm, 165, rfl⟩
abbrev main_cst_37 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_38 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_39 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_40 : Ref sig .tc := ⟨.hbm, 182, rfl⟩
abbrev main_v140 : Ref sig .tc := ⟨.hbm, 183, rfl⟩
abbrev main_v141 : Ref sig .tc := ⟨.hbm, 184, rfl⟩
abbrev main_cst_41 : Ref sig .tc := ⟨.hbm, 185, rfl⟩
abbrev main_v142 : Ref sig .tc := ⟨.hbm, 186, rfl⟩
abbrev main_v143 : Ref sig .tc := ⟨.hbm, 187, rfl⟩
abbrev main_cst_42 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_43 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_44 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_45 : Ref sig .tc := ⟨.hbm, 204, rfl⟩
abbrev main_v157 : Ref sig .tc := ⟨.hbm, 205, rfl⟩
abbrev main_v158 : Ref sig .tc := ⟨.hbm, 206, rfl⟩
abbrev main_cst_46 : Ref sig .tc := ⟨.hbm, 207, rfl⟩
abbrev main_v159 : Ref sig .tc := ⟨.hbm, 208, rfl⟩
abbrev main_v160 : Ref sig .tc := ⟨.hbm, 209, rfl⟩
abbrev main_cst_47 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_48 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_49 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_50 : Ref sig .tc := ⟨.hbm, 226, rfl⟩
abbrev main_v174 : Ref sig .tc := ⟨.hbm, 227, rfl⟩
abbrev main_v175 : Ref sig .tc := ⟨.hbm, 228, rfl⟩
abbrev main_cst_51 : Ref sig .tc := ⟨.hbm, 229, rfl⟩
abbrev main_v176 : Ref sig .tc := ⟨.hbm, 230, rfl⟩
abbrev main_v177 : Ref sig .tc := ⟨.hbm, 231, rfl⟩
abbrev main_cst_52 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_53 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_54 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_55 : Ref sig .tc := ⟨.hbm, 247, rfl⟩
abbrev main_v190 : Ref sig .tc := ⟨.hbm, 248, rfl⟩
abbrev main_v191 : Ref sig .tc := ⟨.hbm, 249, rfl⟩
abbrev main_cst_56 : Ref sig .tc := ⟨.hbm, 250, rfl⟩
abbrev main_v192 : Ref sig .tc := ⟨.hbm, 251, rfl⟩
abbrev main_v193 : Ref sig .tc := ⟨.hbm, 252, rfl⟩
abbrev main_cst_57 : Ref sig .tc := ⟨.hbm, 253, rfl⟩
abbrev main_v194 : Ref sig .tc := ⟨.hbm, 254, rfl⟩
abbrev main_v195 : Ref sig .tc := ⟨.hbm, 255, rfl⟩
abbrev main_cst_58 : Ref sig .tc := ⟨.hbm, 256, rfl⟩
abbrev main_v196 : Ref sig .tc := ⟨.hbm, 257, rfl⟩
abbrev main_v197 : Ref sig .tc := ⟨.hbm, 258, rfl⟩
abbrev main_cst_59 : Ref sig .tc := ⟨.hbm, 259, rfl⟩
abbrev main_v198 : Ref sig .tc := ⟨.hbm, 260, rfl⟩
abbrev main_v199 : Ref sig .tc := ⟨.hbm, 261, rfl⟩
abbrev main_cst_60 : Ref sig .tc := ⟨.hbm, 262, rfl⟩
abbrev main_v200 : Ref sig .tc := ⟨.hbm, 263, rfl⟩
abbrev main_v201 : Ref sig .tc := ⟨.hbm, 264, rfl⟩
abbrev main_cst_61 : Ref sig .tc := ⟨.hbm, 265, rfl⟩
abbrev main_v202 : Ref sig .tc := ⟨.hbm, 266, rfl⟩
abbrev main_v203 : Ref sig .tc := ⟨.hbm, 267, rfl⟩
abbrev main_cst_62 : Ref sig .tc := ⟨.hbm, 268, rfl⟩
abbrev main_v204 : Ref sig .tc := ⟨.hbm, 269, rfl⟩
abbrev main_v205 : Ref sig .tc := ⟨.hbm, 270, rfl⟩
abbrev main_cst_63 : Ref sig .tc := ⟨.hbm, 271, rfl⟩
abbrev main_v206 : Ref sig .tc := ⟨.hbm, 272, rfl⟩
abbrev main_v207 : Ref sig .tc := ⟨.hbm, 273, rfl⟩
abbrev main_cst_64 : Ref sig .tc := ⟨.hbm, 274, rfl⟩
abbrev main_v208 : Ref sig .tc := ⟨.hbm, 275, rfl⟩
abbrev main_v209 : Ref sig .tc := ⟨.hbm, 276, rfl⟩
abbrev main_cst_65 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩

abbrev nD : Nat := 1
abbrev τ : Topo := Topo.v7x

variable {F : FTy → Type} [FloatOps F]

class Facts₀ : Prop where
  bcast_S_S2000000x1 : S_.BroadcastsInDim S2000000x1 (![] : Fin 0 → Fin S2000000x1.rank)
  slices_S2000000x64_S2000000x11_0_1 : S2000000x64.Slices ![0, 1] S2000000x11
  slices_S2000000x11_S2000000x1_0_0 : S2000000x11.Slices ![0, 0] S2000000x1
  slices_S2000000x11_S2000000x1_0_1 : S2000000x11.Slices ![0, 1] S2000000x1
  slices_S2000000x11_S2000000x1_0_2 : S2000000x11.Slices ![0, 2] S2000000x1
  slices_S2000000x11_S2000000x1_0_3 : S2000000x11.Slices ![0, 3] S2000000x1
  slices_S2000000x11_S2000000x1_0_4 : S2000000x11.Slices ![0, 4] S2000000x1
  slices_S2000000x11_S2000000x1_0_5 : S2000000x11.Slices ![0, 5] S2000000x1
  slices_S2000000x11_S2000000x1_0_6 : S2000000x11.Slices ![0, 6] S2000000x1
  slices_S2000000x11_S2000000x1_0_7 : S2000000x11.Slices ![0, 7] S2000000x1
  slices_S2000000x11_S2000000x1_0_8 : S2000000x11.Slices ![0, 8] S2000000x1
  slices_S2000000x11_S2000000x1_0_9 : S2000000x11.Slices ![0, 9] S2000000x1
  slices_S2000000x11_S2000000x1_0_10 : S2000000x11.Slices ![0, 10] S2000000x1
  slices_S2000000x64_S2000000x1_0_12 : S2000000x64.Slices ![0, 12] S2000000x1
  slices_S2000000x64_S2000000x1_0_13 : S2000000x64.Slices ![0, 13] S2000000x1
  slices_S2000000x64_S2000000x1_0_14 : S2000000x64.Slices ![0, 14] S2000000x1
  slices_S2000000x64_S2000000x1_0_15 : S2000000x64.Slices ![0, 15] S2000000x1
  slices_S2000000x64_S2000000x1_0_16 : S2000000x64.Slices ![0, 16] S2000000x1
  slices_S2000000x64_S2000000x1_0_17 : S2000000x64.Slices ![0, 17] S2000000x1
  concatenates_S2000000x1_S2000000x1_S2000000x1_S2000000x1_S2000000x1_S2000000x1_S2000000x6_d1 : Shape.Concatenates [S2000000x1, S2000000x1, S2000000x1, S2000000x1, S2000000x1, S2000000x1] S2000000x6 1

variable [Facts₀]

class Facts : Prop extends Facts₀ where

variable [Facts]
-- ==== Proof.Circuit.lean ====
/-
  The arithmetic circuit both programs evaluate on every row, as a function on the extended reals.

  A row (`col k` is its entry in column `k`) holds the 64 bits of a binary64 number as numbers (0 or 1 in the intended use; the definitions and every
  equation below hold for arbitrary extended reals): column 0 the sign, columns 1 to 11 the exponent, most
  significant bit first, columns 12 on the fraction. The boolean gates are the polynomials
  `a xor b = a + b - 2ab`, `a or b = a + b - ab`, `a and b = ab`, `not a = 1 - a`.

  * `carry`, `sumBit`: the ripple-carry addition `shift = exponent + not 1023 + 1` over 11 bits, least significant
    bit first, i.e. `shift = exponent - 1023` in two's complement (`notBias` is the constant `not 1023`: bit 10
    is 1 and bits 0 to 9 are 0; the carry into bit 0 is 1).
  * `hiZero`: bits 3 to 10 of `shift` all vanish; `isShift k` (k = 0 … 5): `shift = k`, decoded from bits 0 to 2.
  * `outBit b` (b = 0 … 5): bit `b` of the integer part of `1.fraction × 2^shift` — the hidden leading one when
    `shift = b`, the fraction bit `shift - 1 - b` when `shift > b`.
  * `spike`: the six bits, most significant first.

  Every operation is written in the order and grouping in which the two programs apply it, so that each program's
  value at an index unfolds to these terms without any law of arithmetic; the one law used, `x * 1 = x`, removes the
  products with an all-ones column that only one of the programs forms.
-/
import Idealize.ShloMosaic.Lib.ValueIdx

noncomputable section

namespace Cert.Spike

open Idealize.ShloMosaic Idealize.ShloMosaic.ValueIdx

/-- `a xor b` on 0/1-valued numbers, as the polynomial `a + b - 2ab`. -/
def bxor (a b : EReal) : EReal := a + b - 2 * a * b

/-- `a or b` on 0/1-valued numbers, as the polynomial `a + b - ab`. -/
def bor (a b : EReal) : EReal := a + b - a * b

/-- Bit `i` of `not 1023` over 11 bits: only bit 10 is set. -/
def notBias : ℕ → EReal
  | 0 => 0 | 1 => 0 | 2 => 0 | 3 => 0 | 4 => 0 | 5 => 0 | 6 => 0 | 7 => 0 | 8 => 0 | 9 => 0 | 10 => 1 | _ => 0

/-- Exponent bit `i`, least significant first: column `11 - i` of the row. -/
def expBit (col : ℕ → EReal) : ℕ → EReal
  | 0 => col 11 | 1 => col 10 | 2 => col 9 | 3 => col 8 | 4 => col 7 | 5 => col 6
  | 6 => col 5 | 7 => col 4 | 8 => col 3 | 9 => col 2 | 10 => col 1 | _ => 0

/-- Fraction bit `j`, most significant first: column `12 + j` of the row. -/
def fracBit (col : ℕ → EReal) : ℕ → EReal
  | 0 => col 12 | 1 => col 13 | 2 => col 14 | 3 => col 15 | 4 => col 16 | _ => 0

/-- The carry into bit `i` of `exponent + not 1023 + 1`. -/
def carry (col : ℕ → EReal) : ℕ → EReal
  | 0 => 1
  | i + 1 => expBit col i * notBias i + carry col i * bxor (expBit col i) (notBias i)

/-- Bit `i` of `shift = exponent + not 1023 + 1`. -/
def sumBit (col : ℕ → EReal) (i : ℕ) : EReal :=
  bxor (bxor (expBit col i) (notBias i)) (carry col i)

/-- `not` of bit `i` of `shift`. -/
def sumInv (col : ℕ → EReal) (i : ℕ) : EReal := 1 - sumBit col i

/-- Bits 3 to 10 of `shift` all vanish. -/
def hiZero (col : ℕ → EReal) : EReal :=
  sumInv col 3 * sumInv col 4 * sumInv col 5 * sumInv col 6 * sumInv col 7 * sumInv col 8 * sumInv col 9 * sumInv col 10

/-- `shift = k`, for `k = 0 … 5`. -/
def isShift (col : ℕ → EReal) : ℕ → EReal
  | 0 => hiZero col * (sumInv col 0 * (sumInv col 1 * sumInv col 2))
  | 1 => hiZero col * (sumBit col 0 * (sumInv col 1 * sumInv col 2))
  | 2 => hiZero col * (sumInv col 0 * (sumBit col 1 * sumInv col 2))
  | 3 => hiZero col * (sumBit col 0 * (sumBit col 1 * sumInv col 2))
  | 4 => hiZero col * (sumInv col 0 * (sumInv col 1 * sumBit col 2))
  | 5 => hiZero col * (sumBit col 0 * (sumInv col 1 * sumBit col 2))
  | _ => 0

/-- Bit `b` of the integer part of `1.fraction × 2^shift`, for `b = 0 … 5`. -/
def outBit (col : ℕ → EReal) : ℕ → EReal
  | 0 => bor (bor (bor (bor (bor (isShift col 0) (isShift col 1 * fracBit col 0)) (isShift col 2 * fracBit col 1))
            (isShift col 3 * fracBit col 2)) (isShift col 4 * fracBit col 3)) (isShift col 5 * fracBit col 4)
  | 1 => bor (bor (bor (bor (isShift col 1) (isShift col 2 * fracBit col 0)) (isShift col 3 * fracBit col 1))
            (isShift col 4 * fracBit col 2)) (isShift col 5 * fracBit col 3)
  | 2 => bor (bor (bor (isShift col 2) (isShift col 3 * fracBit col 0)) (isShift col 4 * fracBit col 1))
            (isShift col 5 * fracBit col 2)
  | 3 => bor (bor (isShift col 3) (isShift col 4 * fracBit col 0)) (isShift col 5 * fracBit col 1)
  | 4 => bor (isShift col 4) (isShift col 5 * fracBit col 0)
  | 5 => isShift col 5
  | _ => 0

/-- The six output bits of a row, most significant first. -/
def spike (col : ℕ → EReal) (c : Fin 6) : EReal := outBit col (5 - c.val)

/-- Row `n` of a `2000000 × 64` array as a function of the column number (`0` past the last column, which no
    definition above reads). -/
def rowOf (x : (⟨2, ![2000000, 64]⟩ : Shape).Idx → EReal) (n : Fin 2000000) (k : ℕ) : EReal :=
  if h : k < 64 then x (ix2 n ⟨k, h⟩) else 0

/-- The whole result: entry `(n, c)` is output bit `c` of row `n`. Both programs compute this array. -/
def spikeArr (x : (⟨2, ![2000000, 64]⟩ : Shape).Idx → EReal) : (⟨2, ![2000000, 6]⟩ : Shape).Idx → EReal :=
  fun j => spike (rowOf x (j 0)) (j 1)

/-! ## The circuit reads columns 1 to 16 only

Two rows that agree on columns 1 to 16 have the same output bits: each definition above depends on the row only
through the ones before it, and `expBit` and `fracBit` read columns 1 to 11 and 12 to 16. -/

section Congr
variable {c1 c2 : ℕ → EReal} (h : ∀ k, 1 ≤ k → k ≤ 16 → c1 k = c2 k)
include h

theorem expBit_congr : expBit c1 = expBit c2 := by
  funext i
  unfold expBit
  split <;> first | rfl | exact h _ (by norm_num) (by norm_num)

theorem fracBit_congr : fracBit c1 = fracBit c2 := by
  funext i
  unfold fracBit
  split <;> first | rfl | exact h _ (by norm_num) (by norm_num)

theorem carry_congr : carry c1 = carry c2 := by
  funext i
  induction i with
  | zero => rfl
  | succ i ih => simp only [carry, expBit_congr h, ih]

theorem sumBit_congr : sumBit c1 = sumBit c2 := by
  funext i
  unfold sumBit
  rw [expBit_congr h, carry_congr h]

theorem sumInv_congr : sumInv c1 = sumInv c2 := by
  funext i
  unfold sumInv
  rw [sumBit_congr h]

theorem hiZero_congr : hiZero c1 = hiZero c2 := by
  unfold hiZero
  rw [sumInv_congr h]

theorem isShift_congr : isShift c1 = isShift c2 := by
  funext k
  unfold isShift
  rw [hiZero_congr h, sumInv_congr h, sumBit_congr h]

theorem outBit_congr : outBit c1 = outBit c2 := by
  funext b
  unfold outBit
  rw [isShift_congr h, fracBit_congr h]

theorem spike_congr : spike c1 = spike c2 := by
  funext c
  unfold spike
  rw [outBit_congr h]

end Congr

/-! ## The float constants the two programs spell -/

theorem f32_zero : Ideal.ofBits .f32 0x00000000#32 = 0 := by
  simp [Ideal.ofBits, Ideal.ieee]

theorem f32_one : Ideal.ofBits .f32 0x3F800000#32 = 1 := by
  simp [Ideal.ofBits, Ideal.ieee, -EReal.coe_mul]; norm_num

theorem f32_two : Ideal.ofBits .f32 0x40000000#32 = 2 := by
  simp [Ideal.ofBits, Ideal.ieee, -EReal.coe_mul]; norm_num; rfl

theorem bf16_zero : Ideal.ofBits .bf16 0x0000#16 = 0 := by
  simp [Ideal.ofBits, Ideal.ieee]

theorem bf16_one : Ideal.ofBits .bf16 0x3F80#16 = 1 := by
  simp [Ideal.ofBits, Ideal.ieee, -EReal.coe_mul]; norm_num

theorem bf16_two : Ideal.ofBits .bf16 0x4000#16 = 2 := by
  simp [Ideal.ofBits, Ideal.ieee, -EReal.coe_mul]; norm_num; rfl

end Cert.Spike

end
-- ==== Proof.RefValue.lean ====
/-
  What the reference program leaves in its result buffer, read at an index: entry `(n, c)` is output bit `c` of the
  circuit of Proof/Circuit.lean applied to row `n` of the argument.

  The reference works on `2000000 × 1` columns. Column `11 - j` of the argument is read as column `j` of the reversed
  slice of columns 1 to 11 (`exp_leaf`), columns 12 to 16 directly (`frac_leaf`); every constant is a scalar broadcast
  (`bcast_const`); every other operation is pointwise; and the result is six columns put side by side
  (`concat6_*`). So the value at `(n, c)` is a term of `+`, `-`, `*` over the entries of row `n` and the constants
  0, 1, 2 — the circuit's term, up to the products with the all-ones column that the reference forms and `x * 1 = x`
  removes.
-/
import proofs.«112849_j29875792511523_2_alg».proof.Proof.RefRun
import proofs.«112849_j29875792511523_2_alg».proof.Proof.Circuit
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.ValueP Idealize.ShloMosaic Idealize.ShloMosaic.TcCoe
  Idealize.SL.Sem Idealize.ShloMosaic.StableHlo Idealize.ShloMosaic.ValueIdx Cert.Spike

/-! ## The layout operations read at an index -/

/-- Column `o` of a `2000000 × w` array, cut out as a `2000000 × 1` array, reads at `(n, 0)` the array at `(n, o)`. -/
theorem slice_col {α : Type} {w : ℕ} (X : (⟨2, ![2000000, w]⟩ : Shape).Idx → α) (o : ℕ) (ho : o < w)
    (h : (⟨2, ![2000000, w]⟩ : Shape).Slices ![0, o] ⟨2, ![2000000, 1]⟩) (n : Fin 2000000) :
    extractStridedSlice ⟨2, ![2000000, 1]⟩ ![0, o] X h (ix2 n (0 : Fin 1)) = X (ix2 n ⟨o, ho⟩) :=
  slice2_axis1_apply o X h n 0 ⟨o, ho⟩ rfl

/-- Column `j` of the reversed slice of columns 1 to 11 is column `11 - j` of the argument: exponent bit `j`, least
    significant first. -/
theorem exp_leaf {α : Type} (x : S2000000x64.Idx → α) (j : ℕ) (hj : j < 11) (axes : List (Fin 2)) (hax : axes = [1])
    (h1 : S2000000x64.Slices ![0, 1] S2000000x11) (h : S2000000x11.Slices ![0, j] S2000000x1) (n : Fin 2000000) :
    extractStridedSlice S2000000x1 ![0, j] (Host.reverse (s := S2000000x11) axes (extractStridedSlice S2000000x11 ![0, 1] x h1)) h
        (ix2 n (0 : Fin 1)) = x (ix2 n (⟨11 - j, by omega⟩ : Fin 64)) := by
  subst hax
  rw [slice_col _ j hj h n]
  have e : (fun a : Fin S2000000x11.rank => if a ∈ ([1] : List (Fin S2000000x11.rank))
        then ((ix2 n (⟨j, hj⟩ : Fin 11) : S2000000x11.Idx) a).rev else (ix2 n (⟨j, hj⟩ : Fin 11) : S2000000x11.Idx) a)
      = (ix2 n (⟨10 - j, by omega⟩ : Fin 11) : S2000000x11.Idx) := by
    funext a
    match a with
    | ⟨0, _⟩ => exact if_neg (by decide +revert)
    | ⟨1, _⟩ =>
      rw [if_pos (by decide +revert)]
      exact Fin.ext (by show 11 - (j + 1) = 10 - j; omega)
  show extractStridedSlice S2000000x11 ![0, 1] x h1 _ = _
  rw [e]
  exact slice2_axis1_apply 1 x h1 n ⟨10 - j, by omega⟩ ⟨11 - j, by omega⟩ (by show 11 - j = 1 + (10 - j); omega)

/-- Column `k` of the argument, cut out as a column. -/
theorem frac_leaf {α : Type} (x : S2000000x64.Idx → α) (k : ℕ) (hk : k < 64)
    (h : S2000000x64.Slices ![0, k] S2000000x1) (n : Fin 2000000) :
    extractStridedSlice S2000000x1 ![0, k] x h (ix2 n (0 : Fin 1)) = x (ix2 n (⟨k, hk⟩ : Fin 64)) :=
  slice_col x k hk h n

/-- The row function of Proof/Circuit.lean at a column the array has. -/
theorem rowOf_apply (x : (⟨2, ![2000000, 64]⟩ : Shape).Idx → EReal) (n : Fin 2000000) (k : ℕ) (hk : k < 64) :
    rowOf x n k = x (ix2 n (⟨k, hk⟩ : Fin 64)) := by
  unfold rowOf
  rw [dif_pos hk]

/-- A scalar broadcast to a column reads the scalar everywhere. -/
theorem bcast_scalar {α : Type} (h : S_.BroadcastsInDim S2000000x1 (![] : Fin 0 → Fin 2))
    (y : S_.Idx → α) (i : S2000000x1.Idx) :
    broadcastInDim S2000000x1 (![] : Fin 0 → Fin 2) h y i = y ix0 :=
  broadcastInDim_apply _ h y i ix0 (fun a => a.elim0)

/-- The reversed slice is written through a typed reference whose type is the buffer's own: the transport is the identity. -/
theorem toBuf_v2 (p1 : main_v2.ty = (⟨S2000000x11, .f32⟩ : BufTy)) (p2 : main_v2.space ≠ .host) (p3 : main_v2.isScoped = false)
    (v : (⟨S2000000x11, .f32⟩ : BufTy).Contents (Elt Ideal)) :
    (TRef.of (T := ⟨S2000000x11, .f32⟩) main_v2 p1 p2 p3).toBuf v = v := rfl

/-- The same for the slice it reads. -/
theorem ofBuf_v1 (p1 : main_v1.ty = (⟨S2000000x11, .f32⟩ : BufTy)) (p2 : main_v1.space ≠ .host) (p3 : main_v1.isScoped = false)
    (v : (⟨S2000000x11, .f32⟩ : BufTy).Contents (Elt Ideal)) :
    (TRef.of (T := ⟨S2000000x11, .f32⟩) main_v1 p1 p2 p3).ofBuf v = v := rfl

/-- Six columns put side by side read, at `(n, c)`, column `c` at `(n, 0)`. -/
theorem cols6 {α : Type} (p0 p1 p2 p3 p4 p5 : S2000000x1.Idx → α)
    (h : Shape.Concatenates [S2000000x1, S2000000x1, S2000000x1, S2000000x1, S2000000x1, S2000000x1] S2000000x6 1)
    (n : Fin 2000000) :
    let X := concatenate S2000000x6 1 [⟨S2000000x1, p0⟩, ⟨S2000000x1, p1⟩, ⟨S2000000x1, p2⟩, ⟨S2000000x1, p3⟩, ⟨S2000000x1, p4⟩, ⟨S2000000x1, p5⟩] h
    X (ix2 n (0 : Fin 6)) = p0 (ix2 n (0 : Fin 1)) ∧ X (ix2 n (1 : Fin 6)) = p1 (ix2 n (0 : Fin 1))
      ∧ X (ix2 n (2 : Fin 6)) = p2 (ix2 n (0 : Fin 1)) ∧ X (ix2 n (3 : Fin 6)) = p3 (ix2 n (0 : Fin 1))
      ∧ X (ix2 n (4 : Fin 6)) = p4 (ix2 n (0 : Fin 1)) ∧ X (ix2 n (5 : Fin 6)) = p5 (ix2 n (0 : Fin 1)) := by
  intro X
  have piece : ∀ (k : ℕ) (hk : k < 6) (p : S2000000x1.Idx → α)
      (hx : ([⟨S2000000x1, p0⟩, ⟨S2000000x1, p1⟩, ⟨S2000000x1, p2⟩, ⟨S2000000x1, p3⟩, ⟨S2000000x1, p4⟩,
        ⟨S2000000x1, p5⟩] : List ((s : Shape) × (s.Idx → α)))[k]'hk = ⟨S2000000x1, p⟩),
      X (ix2 n (⟨k, hk⟩ : Fin 6)) = p (ix2 n (0 : Fin 1)) := by
    intro k hk p hx
    refine concatenate_apply_piece (t := S2000000x6) (1 : Fin 2)
      ([⟨S2000000x1, p0⟩, ⟨S2000000x1, p1⟩, ⟨S2000000x1, p2⟩, ⟨S2000000x1, p3⟩, ⟨S2000000x1, p4⟩,
        ⟨S2000000x1, p5⟩] : List ((s : Shape) × (s.Idx → α)))
      h (ix2 n (⟨k, hk⟩ : Fin 6)) k hk S2000000x1 _ hx rfl k ?_ (ix2 n (0 : Fin 1)) (fun b hb => ?_) rfl
    · interval_cases k <;> rfl
    · match b with
      | ⟨0, _⟩ => rfl
      | ⟨1, _⟩ => exact absurd rfl hb
  exact ⟨piece 0 (by omega) p0 rfl, piece 1 (by omega) p1 rfl, piece 2 (by omega) p2 rfl, piece 3 (by omega) p3 rfl,
    piece 4 (by omega) p4 rfl, piece 5 (by omega) p5 rfl⟩

section
variable {α : Type} (p0 p1 p2 p3 p4 p5 : S2000000x1.Idx → α)
  (h : Shape.Concatenates [S2000000x1, S2000000x1, S2000000x1, S2000000x1, S2000000x1, S2000000x1] S2000000x6 1)
  (n : Fin 2000000)
theorem cols6_0 :
    concatenate S2000000x6 1 [⟨S2000000x1, p0⟩, ⟨S2000000x1, p1⟩, ⟨S2000000x1, p2⟩, ⟨S2000000x1, p3⟩, ⟨S2000000x1, p4⟩, ⟨S2000000x1, p5⟩] h (ix2 n (0 : Fin 6)) = p0 (ix2 n (0 : Fin 1)) :=
  (cols6 p0 p1 p2 p3 p4 p5 h n).1
theorem cols6_1 :
    concatenate S2000000x6 1 [⟨S2000000x1, p0⟩, ⟨S2000000x1, p1⟩, ⟨S2000000x1, p2⟩, ⟨S2000000x1, p3⟩, ⟨S2000000x1, p4⟩, ⟨S2000000x1, p5⟩] h (ix2 n (1 : Fin 6)) = p1 (ix2 n (0 : Fin 1)) :=
  (cols6 p0 p1 p2 p3 p4 p5 h n).2.1
theorem cols6_2 :
    concatenate S2000000x6 1 [⟨S2000000x1, p0⟩, ⟨S2000000x1, p1⟩, ⟨S2000000x1, p2⟩, ⟨S2000000x1, p3⟩, ⟨S2000000x1, p4⟩, ⟨S2000000x1, p5⟩] h (ix2 n (2 : Fin 6)) = p2 (ix2 n (0 : Fin 1)) :=
  (cols6 p0 p1 p2 p3 p4 p5 h n).2.2.1
theorem cols6_3 :
    concatenate S2000000x6 1 [⟨S2000000x1, p0⟩, ⟨S2000000x1, p1⟩, ⟨S2000000x1, p2⟩, ⟨S2000000x1, p3⟩, ⟨S2000000x1, p4⟩, ⟨S2000000x1, p5⟩] h (ix2 n (3 : Fin 6)) = p3 (ix2 n (0 : Fin 1)) :=
  (cols6 p0 p1 p2 p3 p4 p5 h n).2.2.2.1
theorem cols6_4 :
    concatenate S2000000x6 1 [⟨S2000000x1, p0⟩, ⟨S2000000x1, p1⟩, ⟨S2000000x1, p2⟩, ⟨S2000000x1, p3⟩, ⟨S2000000x1, p4⟩, ⟨S2000000x1, p5⟩] h (ix2 n (4 : Fin 6)) = p4 (ix2 n (0 : Fin 1)) :=
  (cols6 p0 p1 p2 p3 p4 p5 h n).2.2.2.2.1
theorem cols6_5 :
    concatenate S2000000x6 1 [⟨S2000000x1, p0⟩, ⟨S2000000x1, p1⟩, ⟨S2000000x1, p2⟩, ⟨S2000000x1, p3⟩, ⟨S2000000x1, p4⟩, ⟨S2000000x1, p5⟩] h (ix2 n (5 : Fin 6)) = p5 (ix2 n (0 : Fin 1)) :=
  (cols6 p0 p1 p2 p3 p4 p5 h n).2.2.2.2.2
end

/-! ## The result buffer, column by column

The run leaves the result buffer at the fold of the 377 operations' results over the launch contents. Reading the fold
back one operation at a time (each buffer is written once, so a read walks back to the operation that wrote it) and then
pushing the index through the pointwise operations gives the circuit's term, up to `x * 1 = x`. -/

set_option maxRecDepth 8192 in
set_option maxHeartbeats 4000000 in
/-- Column `0` of the result is output bit `5` of the circuit on each row. -/
theorem ref_c0 (V : Valuation τ sig (Elt Ideal)) (n : Fin 2000000) :
    after (ops (F := Ideal)) V (Proc.devRef .tc main_v309) (ix2 n (0 : Fin 6))
      = outBit (rowOf (V (Proc.devRef .tc main_arg0)) n) 5 := by
  simp (disch := decide) only [after_cons, after_nil, nullary_result', unary_result', binary_result', nary_result',
    nullary_result_ne', unary_result_ne', binary_result_ne', nary_result_ne', Matrix.cons_val, toBuf_v2, ofBuf_v1]
  rw [cols6_0]
  simp (disch := decide) only [mulf_apply, addf_apply, subf_apply, bcast_scalar, constant_apply, exp_leaf, frac_leaf,
    f32_zero, f32_one, f32_two, Nat.reduceSub, rowOf_apply, outBit, isShift, hiZero, sumInv, sumBit, carry, bxor, bor,
    expBit, fracBit, notBias, mul_one]

set_option maxRecDepth 8192 in
set_option maxHeartbeats 4000000 in
/-- Column `1` of the result is output bit `4` of the circuit on each row. -/
theorem ref_c1 (V : Valuation τ sig (Elt Ideal)) (n : Fin 2000000) :
    after (ops (F := Ideal)) V (Proc.devRef .tc main_v309) (ix2 n (1 : Fin 6))
      = outBit (rowOf (V (Proc.devRef .tc main_arg0)) n) 4 := by
  simp (disch := decide) only [after_cons, after_nil, nullary_result', unary_result', binary_result', nary_result',
    nullary_result_ne', unary_result_ne', binary_result_ne', nary_result_ne', Matrix.cons_val, toBuf_v2, ofBuf_v1]
  rw [cols6_1]
  simp (disch := decide) only [mulf_apply, addf_apply, subf_apply, bcast_scalar, constant_apply, exp_leaf, frac_leaf,
    f32_zero, f32_one, f32_two, Nat.reduceSub, rowOf_apply, outBit, isShift, hiZero, sumInv, sumBit, carry, bxor, bor,
    expBit, fracBit, notBias, mul_one]

set_option maxRecDepth 8192 in
set_option maxHeartbeats 4000000 in
/-- Column `2` of the result is output bit `3` of the circuit on each row. -/
theorem ref_c2 (V : Valuation τ sig (Elt Ideal)) (n : Fin 2000000) :
    after (ops (F := Ideal)) V (Proc.devRef .tc main_v309) (ix2 n (2 : Fin 6))
      = outBit (rowOf (V (Proc.devRef .tc main_arg0)) n) 3 := by
  simp (disch := decide) only [after_cons, after_nil, nullary_result', unary_result', binary_result', nary_result',
    nullary_result_ne', unary_result_ne', binary_result_ne', nary_result_ne', Matrix.cons_val, toBuf_v2, ofBuf_v1]
  rw [cols6_2]
  simp (disch := decide) only [mulf_apply, addf_apply, subf_apply, bcast_scalar, constant_apply, exp_leaf, frac_leaf,
    f32_zero, f32_one, f32_two, Nat.reduceSub, rowOf_apply, outBit, isShift, hiZero, sumInv, sumBit, carry, bxor, bor,
    expBit, fracBit, notBias, mul_one]

set_option maxRecDepth 8192 in
set_option maxHeartbeats 4000000 in
/-- Column `3` of the result is output bit `2` of the circuit on each row. -/
theorem ref_c3 (V : Valuation τ sig (Elt Ideal)) (n : Fin 2000000) :
    after (ops (F := Ideal)) V (Proc.devRef .tc main_v309) (ix2 n (3 : Fin 6))
      = outBit (rowOf (V (Proc.devRef .tc main_arg0)) n) 2 := by
  simp (disch := decide) only [after_cons, after_nil, nullary_result', unary_result', binary_result', nary_result',
    nullary_result_ne', unary_result_ne', binary_result_ne', nary_result_ne', Matrix.cons_val, toBuf_v2, ofBuf_v1]
  rw [cols6_3]
  simp (disch := decide) only [mulf_apply, addf_apply, subf_apply, bcast_scalar, constant_apply, exp_leaf, frac_leaf,
    f32_zero, f32_one, f32_two, Nat.reduceSub, rowOf_apply, outBit, isShift, hiZero, sumInv, sumBit, carry, bxor, bor,
    expBit, fracBit, notBias, mul_one]

set_option maxRecDepth 8192 in
set_option maxHeartbeats 4000000 in
/-- Column `4` of the result is output bit `1` of the circuit on each row. -/
theorem ref_c4 (V : Valuation τ sig (Elt Ideal)) (n : Fin 2000000) :
    after (ops (F := Ideal)) V (Proc.devRef .tc main_v309) (ix2 n (4 : Fin 6))
      = outBit (rowOf (V (Proc.devRef .tc main_arg0)) n) 1 := by
  simp (disch := decide) only [after_cons, after_nil, nullary_result', unary_result', binary_result', nary_result',
    nullary_result_ne', unary_result_ne', binary_result_ne', nary_result_ne', Matrix.cons_val, toBuf_v2, ofBuf_v1]
  rw [cols6_4]
  simp (disch := decide) only [mulf_apply, addf_apply, subf_apply, bcast_scalar, constant_apply, exp_leaf, frac_leaf,
    f32_zero, f32_one, f32_two, Nat.reduceSub, rowOf_apply, outBit, isShift, hiZero, sumInv, sumBit, carry, bxor, bor,
    expBit, fracBit, notBias, mul_one]

set_option maxRecDepth 8192 in
set_option maxHeartbeats 4000000 in
/-- Column `5` of the result is output bit `0` of the circuit on each row. -/
theorem ref_c5 (V : Valuation τ sig (Elt Ideal)) (n : Fin 2000000) :
    after (ops (F := Ideal)) V (Proc.devRef .tc main_v309) (ix2 n (5 : Fin 6))
      = outBit (rowOf (V (Proc.devRef .tc main_arg0)) n) 0 := by
  simp (disch := decide) only [after_cons, after_nil, nullary_result', unary_result', binary_result', nary_result',
    nullary_result_ne', unary_result_ne', binary_result_ne', nary_result_ne', Matrix.cons_val, toBuf_v2, ofBuf_v1]
  rw [cols6_5]
  simp (disch := decide) only [mulf_apply, addf_apply, subf_apply, bcast_scalar, constant_apply, exp_leaf, frac_leaf,
    f32_zero, f32_one, f32_two, Nat.reduceSub, rowOf_apply, outBit, isShift, hiZero, sumInv, sumBit, carry, bxor, bor,
    expBit, fracBit, notBias, mul_one]

/-- The result buffer at every index: entry `(n, c)` is output bit `c` of row `n` of the argument. -/
theorem ref_at (V : Valuation τ sig (Elt Ideal)) (n : Fin 2000000) (c : Fin 6) :
    after (ops (F := Ideal)) V (Proc.devRef .tc main_v309) (ix2 n c) = spike (rowOf (V (Proc.devRef .tc main_arg0)) n) c := by
  unfold spike
  match c with
  | ⟨0, _⟩ => exact ref_c0 V n
  | ⟨1, _⟩ => exact ref_c1 V n
  | ⟨2, _⟩ => exact ref_c2 V n
  | ⟨3, _⟩ => exact ref_c3 V n
  | ⟨4, _⟩ => exact ref_c4 V n
  | ⟨5, _⟩ => exact ref_c5 V n

/-- What the reference leaves in its result buffer is the circuit applied to every row of the argument. -/
theorem result_eq (m : (ℓ : Loc nD τ sig) → Buf (Elt Ideal) ℓ) (c : Dev nD) :
    res_main_v309 m c = spikeArr (m ((c.tc : Thread nD τ).loc main_arg0)) := by
  funext j
  obtain ⟨n, cc, rfl⟩ : ∃ (n : Fin 2000000) (cc : Fin 6), j = ix2 n cc := ⟨j 0, j 1, eq_ix2 j⟩
  exact ref_at (launchContents m c) n cc

end Cert.ReferenceIdeal.RefValue

end
-- ==== Proof.KerBody.lean ====
/-
  What the kernel body leaves in its output block, read at an index: entry `(c, r, l)` of the `6 × 1000 × 128` block
  is output bit `c` of the circuit of Proof/Circuit.lean applied to the 17 entries `(k, r, l)` of the input block.

  The body works on `1000 × 128` planes: plane `k` of the input block (`plane_leaf`) carries column `k + 1` of the
  rows the block holds, so the block at `(r, l)` is read as a row whose column `k + 1` is the block's entry
  `(k, r, l)` (`blockRow`); every constant is a broadcast scalar; every other operation is pointwise; the six result
  planes are stacked along a new leading axis (`stack6_*`). A change of float format is the identity on the extended
  reals, so the value at `(c, r, l)` is the circuit's term as it stands.
-/
import proofs.«112849_j29875792511523_2_alg».proof.Proof.Gen.KernelIdeal.Frame
import proofs.«112849_j29875792511523_2_alg».proof.Proof.Circuit
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.SL.Sem
  Idealize.ShloMosaic.ValueIdx Cert.Spike

/-- Position `(r, l)` of a `17 × 1000 × 128` block read as a row of the original array: column `k` (for
    `1 ≤ k ≤ 17`) is the block's entry `(k - 1, r, l)`; `0` at every other column, which the circuit never reads. -/
def blockRow (v0 : S17x1000x128.Idx → EReal) (r : Fin 1000) (l : Fin 128) (k : ℕ) : EReal :=
  if h : 1 ≤ k ∧ k ≤ 17 then v0 (ix3 (⟨k - 1, by omega⟩ : Fin 17) r l) else 0

theorem hz3 : (![0, 0, 0] : Fin 3 → Nat) = fun _ => 0 := funext fun a => by fin_cases a <;> rfl

/-- Plane `k` of the block after the change of format (a change of float format is the identity), cut out and its unit
    axis dropped, reads at `(r, l)` the block's entry `(k, r, l)`: column `k + 1` of the row at that position. -/
theorem plane_leaf (v0 : Vec Ideal S17x1000x128 .f32) (k : ℕ) (hk : k < 17)
    (hs : S17x1000x128.Slices ![k, 0, 0] S1x1000x128) (hc2 : S1x1000x128.ShapeCasts S1000x128)
    (r : Fin 1000) (l : Fin 128) :
    shapeCast S1000x128 (extractStridedSlice S1x1000x128 ![k, 0, 0] (k0_pay2 v0) hs) hc2 (ix2 r l)
      = blockRow v0 r l (k + 1) := by
  rw [shapeCast_1ab_ab_apply _ hc2 r l,
    extractStridedSlice_apply ![k, 0, 0] _ hs (ix3 (0 : Fin 1) r l) (ix3 (⟨k, hk⟩ : Fin 17) r l) (fun a =>
      match a with
      | ⟨0, _⟩ => rfl
      | ⟨1, _⟩ => (Nat.zero_add _).symm
      | ⟨2, _⟩ => (Nat.zero_add _).symm)]
  simp only [k0_pay2, truncf_apply, shapeCast_self]
  unfold blockRow
  rw [dif_pos ⟨by omega, by omega⟩]
  rfl

/-- Six planes, each given a leading unit axis and stacked along it, read at `(c, r, l)` plane `c` at `(r, l)`. -/
theorem stack6 {α : Type} (p0 p1 p2 p3 p4 p5 : S1000x128.Idx → α) (hc : S1000x128.ShapeCasts S1x1000x128)
    (h : Shape.Concatenates [S1x1000x128, S1x1000x128, S1x1000x128, S1x1000x128, S1x1000x128, S1x1000x128] S6x1000x128 0)
    (r : Fin 1000) (l : Fin 128) :
    let X := concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h
    X (ix3 (0 : Fin 6) r l) = p0 (ix2 r l) ∧ X (ix3 (1 : Fin 6) r l) = p1 (ix2 r l) ∧ X (ix3 (2 : Fin 6) r l) = p2 (ix2 r l)
      ∧ X (ix3 (3 : Fin 6) r l) = p3 (ix2 r l) ∧ X (ix3 (4 : Fin 6) r l) = p4 (ix2 r l) ∧ X (ix3 (5 : Fin 6) r l) = p5 (ix2 r l) := by
  intro X
  have piece : ∀ (k : ℕ) (hk : k < 6) (p : S1000x128.Idx → α)
      (hx : [(⟨S1x1000x128, shapeCast S1x1000x128 p0 hc⟩ : (s : Shape) × (s.Idx → α)), ⟨S1x1000x128, shapeCast S1x1000x128 p1 hc⟩,
        ⟨S1x1000x128, shapeCast S1x1000x128 p2 hc⟩, ⟨S1x1000x128, shapeCast S1x1000x128 p3 hc⟩,
        ⟨S1x1000x128, shapeCast S1x1000x128 p4 hc⟩, ⟨S1x1000x128, shapeCast S1x1000x128 p5 hc⟩][k]'hk
          = ⟨S1x1000x128, shapeCast S1x1000x128 p hc⟩),
      X (ix3 (⟨k, hk⟩ : Fin 6) r l) = p (ix2 r l) := by
    intro k hk p hx
    refine (concatenate_apply_piece (t := S6x1000x128) (0 : Fin 3)
      [(⟨S1x1000x128, shapeCast S1x1000x128 p0 hc⟩ : (s : Shape) × (s.Idx → α)), ⟨S1x1000x128, shapeCast S1x1000x128 p1 hc⟩,
        ⟨S1x1000x128, shapeCast S1x1000x128 p2 hc⟩, ⟨S1x1000x128, shapeCast S1x1000x128 p3 hc⟩,
        ⟨S1x1000x128, shapeCast S1x1000x128 p4 hc⟩, ⟨S1x1000x128, shapeCast S1x1000x128 p5 hc⟩]
      h (ix3 (⟨k, hk⟩ : Fin 6) r l) k hk S1x1000x128 _ hx rfl k ?_
      (ix3 (0 : Fin 1) r l) (fun b hb => ?_) rfl).trans (shapeCast_ab_1ab_apply p hc 0 r l)
    · interval_cases k <;> rfl
    · match b with
      | ⟨0, _⟩ => exact absurd rfl hb
      | ⟨1, _⟩ => rfl
      | ⟨2, _⟩ => rfl
  exact ⟨piece 0 (by omega) p0 rfl, piece 1 (by omega) p1 rfl, piece 2 (by omega) p2 rfl, piece 3 (by omega) p3 rfl,
    piece 4 (by omega) p4 rfl, piece 5 (by omega) p5 rfl⟩

section
variable {α : Type} (p0 p1 p2 p3 p4 p5 : S1000x128.Idx → α) (hc : S1000x128.ShapeCasts S1x1000x128)
  (h : Shape.Concatenates [S1x1000x128, S1x1000x128, S1x1000x128, S1x1000x128, S1x1000x128, S1x1000x128] S6x1000x128 0)
  (r : Fin 1000) (l : Fin 128)
theorem stack6_0 :
    concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h (ix3 (0 : Fin 6) r l) = p0 (ix2 r l) :=
  (stack6 p0 p1 p2 p3 p4 p5 hc h r l).1
theorem stack6_1 :
    concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h (ix3 (1 : Fin 6) r l) = p1 (ix2 r l) :=
  (stack6 p0 p1 p2 p3 p4 p5 hc h r l).2.1
theorem stack6_2 :
    concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h (ix3 (2 : Fin 6) r l) = p2 (ix2 r l) :=
  (stack6 p0 p1 p2 p3 p4 p5 hc h r l).2.2.1
theorem stack6_3 :
    concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h (ix3 (3 : Fin 6) r l) = p3 (ix2 r l) :=
  (stack6 p0 p1 p2 p3 p4 p5 hc h r l).2.2.2.1
theorem stack6_4 :
    concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h (ix3 (4 : Fin 6) r l) = p4 (ix2 r l) :=
  (stack6 p0 p1 p2 p3 p4 p5 hc h r l).2.2.2.2.1
theorem stack6_5 :
    concatenate S6x1000x128 0 [⟨S1x1000x128, shapeCast S1x1000x128 p0 hc⟩, ⟨S1x1000x128, shapeCast S1x1000x128 p1 hc⟩,
      ⟨S1x1000x128, shapeCast S1x1000x128 p2 hc⟩, ⟨S1x1000x128, shapeCast S1x1000x128 p3 hc⟩,
      ⟨S1x1000x128, shapeCast S1x1000x128 p4 hc⟩, ⟨S1x1000x128, shapeCast S1x1000x128 p5 hc⟩] h (ix3 (5 : Fin 6) r l) = p5 (ix2 r l) :=
  (stack6 p0 p1 p2 p3 p4 p5 hc h r l).2.2.2.2.2
end

/-! ## The block the body leaves, plane by plane

The body's result is the generated `Gen.out0_1`: one store of the whole block, whose payload is the tree of the body's
operations. Unfolding the payloads and reading at an index gives the circuit's term literally. -/

set_option maxRecDepth 8192 in
set_option maxHeartbeats 4000000 in
/-- Plane `0` of the output block is output bit `5` of the circuit at each position. -/
theorem body_c0 (x0 : Vec Ideal S17x1000x128 .f32) (r : Fin 1000) (l : Fin 128) :
    out0_1 x0 (ix3 (0 : Fin 6) r l) = outBit (blockRow x0 r l) 5 := by
  unfold out0_1
  rw [View.canon_unit_zero hz3]
  simp only [View.ld_unit_zero (S := S17x1000x128) hz3]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  rw [extf_apply, stack6_0]
  simp (disch := decide) only [mulf_apply, addf_apply, subf_apply, broadcast_apply, plane_leaf, Ideal.ofBits_def,
    bf16_zero, bf16_one, bf16_two, Nat.reduceAdd, outBit, isShift, hiZero, sumInv, sumBit, carry, bxor, bor, expBit,
    fracBit, notBias]

set_option maxRecDepth 8192 in
set_option maxHeartbeats 4000000 in
/-- Plane `1` of the output block is output bit `4` of the circuit at each position. -/
theorem body_c1 (x0 : Vec Ideal S17x1000x128 .f32) (r : Fin 1000) (l : Fin 128) :
    out0_1 x0 (ix3 (1 : Fin 6) r l) = outBit (blockRow x0 r l) 4 := by
  unfold out0_1
  rw [View.canon_unit_zero hz3]
  simp only [View.ld_unit_zero (S := S17x1000x128) hz3]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  rw [extf_apply, stack6_1]
  simp (disch := decide) only [mulf_apply, addf_apply, subf_apply, broadcast_apply, plane_leaf, Ideal.ofBits_def,
    bf16_zero, bf16_one, bf16_two, Nat.reduceAdd, outBit, isShift, hiZero, sumInv, sumBit, carry, bxor, bor, expBit,
    fracBit, notBias]

set_option maxRecDepth 8192 in
set_option maxHeartbeats 4000000 in
/-- Plane `2` of the output block is output bit `3` of the circuit at each position. -/
theorem body_c2 (x0 : Vec Ideal S17x1000x128 .f32) (r : Fin 1000) (l : Fin 128) :
    out0_1 x0 (ix3 (2 : Fin 6) r l) = outBit (blockRow x0 r l) 3 := by
  unfold out0_1
  rw [View.canon_unit_zero hz3]
  simp only [View.ld_unit_zero (S := S17x1000x128) hz3]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  rw [extf_apply, stack6_2]
  simp (disch := decide) only [mulf_apply, addf_apply, subf_apply, broadcast_apply, plane_leaf, Ideal.ofBits_def,
    bf16_zero, bf16_one, bf16_two, Nat.reduceAdd, outBit, isShift, hiZero, sumInv, sumBit, carry, bxor, bor, expBit,
    fracBit, notBias]

set_option maxRecDepth 8192 in
set_option maxHeartbeats 4000000 in
/-- Plane `3` of the output block is output bit `2` of the circuit at each position. -/
theorem body_c3 (x0 : Vec Ideal S17x1000x128 .f32) (r : Fin 1000) (l : Fin 128) :
    out0_1 x0 (ix3 (3 : Fin 6) r l) = outBit (blockRow x0 r l) 2 := by
  unfold out0_1
  rw [View.canon_unit_zero hz3]
  simp only [View.ld_unit_zero (S := S17x1000x128) hz3]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  rw [extf_apply, stack6_3]
  simp (disch := decide) only [mulf_apply, addf_apply, subf_apply, broadcast_apply, plane_leaf, Ideal.ofBits_def,
    bf16_zero, bf16_one, bf16_two, Nat.reduceAdd, outBit, isShift, hiZero, sumInv, sumBit, carry, bxor, bor, expBit,
    fracBit, notBias]

set_option maxRecDepth 8192 in
set_option maxHeartbeats 4000000 in
/-- Plane `4` of the output block is output bit `1` of the circuit at each position. -/
theorem body_c4 (x0 : Vec Ideal S17x1000x128 .f32) (r : Fin 1000) (l : Fin 128) :
    out0_1 x0 (ix3 (4 : Fin 6) r l) = outBit (blockRow x0 r l) 1 := by
  unfold out0_1
  rw [View.canon_unit_zero hz3]
  simp only [View.ld_unit_zero (S := S17x1000x128) hz3]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  rw [extf_apply, stack6_4]
  simp (disch := decide) only [mulf_apply, addf_apply, subf_apply, broadcast_apply, plane_leaf, Ideal.ofBits_def,
    bf16_zero, bf16_one, bf16_two, Nat.reduceAdd, outBit, isShift, hiZero, sumInv, sumBit, carry, bxor, bor, expBit,
    fracBit, notBias]

set_option maxRecDepth 8192 in
set_option maxHeartbeats 4000000 in
/-- Plane `5` of the output block is output bit `0` of the circuit at each position. -/
theorem body_c5 (x0 : Vec Ideal S17x1000x128 .f32) (r : Fin 1000) (l : Fin 128) :
    out0_1 x0 (ix3 (5 : Fin 6) r l) = outBit (blockRow x0 r l) 0 := by
  unfold out0_1
  rw [View.canon_unit_zero hz3]
  simp only [View.ld_unit_zero (S := S17x1000x128) hz3]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
  rw [extf_apply, stack6_5]
  simp (disch := decide) only [mulf_apply, addf_apply, subf_apply, broadcast_apply, plane_leaf, Ideal.ofBits_def,
    bf16_zero, bf16_one, bf16_two, Nat.reduceAdd, outBit, isShift, hiZero, sumInv, sumBit, carry, bxor, bor, expBit,
    fracBit, notBias]

/-- The block the body leaves, at every index: entry `(c, r, l)` is output bit `c` of the row at `(r, l)`. -/
theorem body_at (x0 : Vec Ideal S17x1000x128 .f32) (c : Fin 6) (r : Fin 1000) (l : Fin 128) :
    out0_1 x0 (ix3 c r l) = spike (blockRow x0 r l) c := by
  unfold spike
  match c with
  | ⟨0, _⟩ => exact body_c0 x0 r l
  | ⟨1, _⟩ => exact body_c1 x0 r l
  | ⟨2, _⟩ => exact body_c2 x0 r l
  | ⟨3, _⟩ => exact body_c3 x0 r l
  | ⟨4, _⟩ => exact body_c4 x0 r l
  | ⟨5, _⟩ => exact body_c5 x0 r l

end Cert.KernelIdeal.Body

end
-- ==== Proof.KerArray.lean ====
/-
  From the body's blocks to the kernel's result array.

  The host lines before the region cut columns 1 to 17 out of the argument, transpose, regroup the 2000000 rows as
  15625 groups of 128 and pad to 16000 groups: entry `(k, g, l)` of the region's input, for `g < 15625`, is the
  argument at row `128 g + l`, column `k + 1` (`V_v3_apply`). Grid point `t` of 16 stages groups `1000 t … 1000 t + 999`
  of all 17 planes, and writes back the same groups of the 6 result planes (`iblk_apply`, `flushed_eq`); the 16 blocks
  cover the output array (`cover`), which therefore ends at `outArr` of the input: the circuit applied to each
  `(g, l)` position (`final`). The host lines after the region drop the padding, flatten the groups back into
  rows and transpose (`tail_v7`): the result at `(n, c)` is the output array at `(c, n / 128, n % 128)`, whose position
  holds the argument's row `128 (n / 128) + n % 128 = n` (`result_apply`). The circuit reads columns 1 to 16 only,
  so the row function of the block and the row function of the argument give the same bits (`spike_congr`).
-/
import proofs.«112849_j29875792511523_2_alg».proof.Proof.KerBody
import Idealize.ShloMosaic.Lib.KernelVsHost
import Idealize.ShloMosaic.Lib.StableHlo.Run

set_option maxRecDepth 16384

noncomputable section

namespace Cert.KernelIdeal.KerValue

open Cert.KernelIdeal Cert.KernelIdeal.Gen Cert.KernelIdeal.Body Idealize.ShloMosaic Idealize.ShloMosaic.TcCoe Idealize.SL.Sem
  Idealize.ShloMosaic.ValueIdx Cert.Spike
open Idealize.ShloMosaic.Pipeline (Dat)

variable (m : (ℓ : Loc nD τ sig) → Buf (Elt Ideal) ℓ) (ρ : Dev nD → PrngReg)

/-! ## The region's input array, from the argument -/

/-- Entry `(k, g, l)` of the region's input, inside the padding, is the argument at row `128 g + l`, column `k + 1`. -/
theorem V_v3_apply (c : Dev nD) (k : Fin 17) (g : Fin 16000) (l : Fin 128) (hg : g.val < 15625) :
    (V m c main_v3 : S17x16000x128.Idx → EReal) (ix3 k g l)
      = (m ((c : Thread nD τ).loc main_arg0) : S2000000x64.Idx → EReal)
          (ix2 (⟨128 * g.val + l.val, by have := l.isLt; omega⟩ : Fin 2000000) (⟨k.val + 1, by have := k.isLt; omega⟩ : Fin 64)) := by
  have e : (V m c main_v3 : S17x16000x128.Idx → EReal)
      = pad S17x16000x128 ![0, 0, 0] ![0, 375, 0] ![0, 0, 0]
          (shapeCast S17x15625x128 (transpose S17x2000000 [1, 0]
            (extractStridedSlice S2000000x17 ![0, 1] (m ((c : Thread nD τ).loc main_arg0) : S2000000x64.Idx → EReal)
              slices_S2000000x64_S2000000x17_0_1) transposes_S2000000x17_S17x2000000_1_0) shapeCasts_S17x2000000_S17x15625x128)
          (sitofp (F := Ideal) .f32 (constantI S_ 32 0#32)) pads_S17x15625x128_S17x16000x128_000_03750_000 h_S_ := by
    dsimp only [Gen.V, Gen.V0]
    simp only [Gen.hostOps0, Gen.hostOps0_1, List.flatten_cons, List.flatten_nil, List.append_nil, List.cons_append,
      List.nil_append]
    after_results
    rfl
  rw [e]
  rw [pad_apply_of_inside ![0, 0, 0] ![0, 375, 0] ![0, 0, 0] _ _ pads_S17x15625x128_S17x16000x128_000_03750_000 h_S_
    (ix3 k g l) (ix3 k (⟨g.val, hg⟩ : Fin 15625) l) (fun a => by
      match a with
      | ⟨0, _⟩ => show k.val = 0 + k.val * (0 + 1); omega
      | ⟨1, _⟩ => show g.val = 0 + g.val * (0 + 1); omega
      | ⟨2, _⟩ => show l.val = 0 + l.val * (0 + 1); omega)]
  rw [shapeCast_apply _ shapeCasts_S17x2000000_S17x15625x128 (ix3 k (⟨g.val, hg⟩ : Fin 15625) l)
    (ix2 k (⟨128 * g.val + l.val, by have := l.isLt; omega⟩ : Fin 2000000)) (by
      rw [Shape.rowMajor_val_two, Shape.rowMajor_val_three]
      show k.val * 2000000 + (128 * g.val + l.val) = (k.val * 15625 + g.val) * 128 + l.val
      omega)]
  rw [transpose_ix2_apply]
  exact slice2_axis1_apply 1 _ slices_S2000000x64_S2000000x17_0_1 _ k ⟨k.val + 1, by have := k.isLt; omega⟩ (by show k.val + 1 = 1 + k.val; omega)

/-! ## The blocks -/

/-- The printed index maps, decided over the 16 grid points: both windows move along the group axis only. -/
theorem idx_facts : ∀ t : Fin cfg0.N, win0_0.index t (0 : Fin 3) = 0 ∧ win0_0.index t (1 : Fin 3) = t.val
    ∧ win0_0.index t (2 : Fin 3) = 0 ∧ win0_1.index t (0 : Fin 3) = 0 ∧ win0_1.index t (1 : Fin 3) = t.val
    ∧ win0_1.index t (2 : Fin 3) = 0 :=
  (by decide +kernel : ∀ t : Fin grid0.N, _)

/-- Entry `(k, r, l)` of the input block at point `t` is the input array at group `1000 t + r`. -/
theorem iblk_apply (c : Dev nD) (t : Fin cfg0.N) (k : Fin 17) (r : Fin 1000) (l : Fin 128) :
    (iblk m c 0 t : Vec Ideal S17x1000x128 .f32) (ix3 k r l)
      = (V m c main_v3 : S17x16000x128.Idx → EReal)
          (ix3 k (⟨1000 * t.val + r.val, by have := t.isLt; have := r.isLt; have hN : cfg0.N = 16 := N_0; omega⟩ : Fin 16000) l) := by
  obtain ⟨e0, e1, e2, -, -, -⟩ := idx_facts t
  unfold iblk
  rw [View.read_apply]
  show V m c main_v3 _ = V m c main_v3 _
  refine congrArg (V m c main_v3) ?_
  funext a
  apply Fin.ext
  match a with
  | ⟨0, _⟩ => show win0_0.index t (0 : Fin 3) * 17 + 1 * k.val = k.val; rw [e0]; omega
  | ⟨1, _⟩ => show win0_0.index t (1 : Fin 3) * 1000 + 1 * r.val = 1000 * t.val + r.val; rw [e1]; omega
  | ⟨2, _⟩ => show win0_0.index t (2 : Fin 3) * 128 + 1 * l.val = l.val; rw [e2]; omega

/-- The array whose blocks the grid points write back: at `(c, g, l)`, output bit `c` of the circuit on the row that
    position `(g, l)` of the input array holds — column `k` (for `1 ≤ k ≤ 17`) is plane `k - 1`. -/
def outArr (A : S17x16000x128.Idx → EReal) : S6x16000x128.Idx → EReal := fun j =>
  spike (fun k => if h : 1 ≤ k ∧ k ≤ 17 then A (ix3 (⟨k - 1, by omega⟩ : Fin 17) (j 1) (j 2)) else 0) (j 0)

/-- Where entry `(cc, r, l)` of the output block at point `t` lies in the output array. -/
theorem emb_out (t : Fin cfg0.N) (cc : Fin 6) (r : Fin 1000) (l : Fin 128) :
    ((cfg0.win 1).blk t).view.emb (ix3 cc r l : S6x1000x128.Idx)
      = (ix3 cc (⟨1000 * t.val + r.val, by have := t.isLt; have := r.isLt; have hN : cfg0.N = 16 := N_0; omega⟩ : Fin 16000) l : S6x16000x128.Idx) := by
  obtain ⟨-, -, -, e0, e1, e2⟩ := idx_facts t
  funext a
  apply Fin.ext
  match a with
  | ⟨0, _⟩ => show win0_1.index t (0 : Fin 3) * 6 + 1 * cc.val = cc.val; rw [e0]; omega
  | ⟨1, _⟩ => show win0_1.index t (1 : Fin 3) * 1000 + 1 * r.val = 1000 * t.val + r.val; rw [e1]; omega
  | ⟨2, _⟩ => show win0_1.index t (2 : Fin 3) * 128 + 1 * l.val = l.val; rw [e2]; omega

/-- What point `t` writes back, at one entry of the block. -/
theorem flushed_point (c : Dev nD) (t : Fin cfg0.N) (y : S6x1000x128.Idx) :
    out0_1 (iblk m c 0 t) y = outArr (V m c main_v3) (((cfg0.win 1).blk t).view.emb y) := by
  obtain ⟨cc, r, l, rfl⟩ : ∃ (cc : Fin 6) (r : Fin 1000) (l : Fin 128), y = ix3 cc r l := ⟨y 0, y 1, y 2, eq_ix3 y⟩
  rw [body_at, emb_out]
  unfold outArr
  refine congrFun (congrArg spike (funext fun k => ?_)) cc
  unfold blockRow
  by_cases h : 1 ≤ k ∧ k ≤ 17
  · rw [dif_pos h, dif_pos h]
    exact iblk_apply m c t _ r l
  · rw [dif_neg h, dif_neg h]

/-- WHAT POINT `t` WRITES BACK is block `t` of `outArr` of the region's input. -/
theorem flushed_eq (c : Dev nD) (t : Fin cfg0.N) :
    (dats m 0 c).flushed 1 t = ((cfg0.win 1).blk t).view.read (Elt Ideal) (outArr (V m c main_v3)) := by
  show (cfg0.win 1).cut (grid0.coords t) ((dats m 0 c).after 1 t) = _
  rw [after0_1]
  funext y
  exact flushed_point m c t y

/-- An index of the output array is in point `t`'s block iff each coordinate is in the block's range on its axis. -/
theorem mem_blk (t : Fin cfg0.N) (i : S6x16000x128.Idx) :
    i ∈ ((cfg0.win 1).blk t).view.set ↔ ∀ a : Fin 3, win0_1.index t a * S6x1000x128.size a ≤ (i a).val
      ∧ (i a).val < win0_1.index t a * S6x1000x128.size a + S6x1000x128.size a := by
  show i ∈ ((View.whole main_v4).slice (win0_1.rect t)).set ↔ _
  rw [View.set_slice_whole, Rect.mem_set_unit]
  exact Iff.rfl

/-- The 16 blocks cover the output array: group `g` is in the block of point `g / 1000`. -/
theorem cover (i : S6x16000x128.Idx) :
    ∃ t : Fin cfg0.N, (cfg0.win 1).flush t = true ∧ i ∈ ((cfg0.win 1).blk t).view.set := by
  have h0 : (i 0).val < 6 := (i 0).isLt
  have h1 : (i 1).val < 16000 := (i 1).isLt
  have h2 : (i 2).val < 128 := (i 2).isLt
  have hN : cfg0.N = 16 := N_0
  let t : Fin cfg0.N := ⟨(i 1).val / 1000, by omega⟩
  refine ⟨t, flush0_1 t, ?_⟩
  obtain ⟨-, -, -, e0, e1, e2⟩ := idx_facts t
  have ht : t.val = (i 1).val / 1000 := rfl
  rw [mem_blk]
  intro a
  match a with
  | ⟨0, _⟩ => show win0_1.index t (0 : Fin 3) * 6 ≤ (i 0).val ∧ (i 0).val < win0_1.index t (0 : Fin 3) * 6 + 6; rw [e0]; omega
  | ⟨1, _⟩ => show win0_1.index t (1 : Fin 3) * 1000 ≤ (i 1).val ∧ (i 1).val < win0_1.index t (1 : Fin 3) * 1000 + 1000; rw [e1, ht]; omega
  | ⟨2, _⟩ => show win0_1.index t (2 : Fin 3) * 128 ≤ (i 2).val ∧ (i 2).val < win0_1.index t (2 : Fin 3) * 128 + 128; rw [e2]; omega

/-- THE OUTPUT ARRAY after the region. -/
theorem final (c : Dev nD) : (dats m 0 c).arrAt 1 cfg0.N = outArr (V m c main_v3) :=
  (dats m 0 c).arrAt_eq_of_cover 1 (outArr (V m c main_v3)) (fun t _ => flushed_eq m c t) cover

/-! ## The host lines after the region, and the result at an index -/

/-- The result buffer after the host lines that follow the region: the output array with the padding groups dropped,
    the groups flattened back into rows, transposed. -/
theorem tail_v7 (c : Dev nD) :
    (Pipeline.afterTail₀ cfgs (dats m) 0 (V0 m) [hostOps1] c main_v7 : S2000000x6.Idx → EReal)
      = transpose S2000000x6 [1, 0]
          (shapeCast S6x2000000
            (extractStridedSlice S6x15625x128 ![0, 0, 0] ((dats m 0 c).arrAt 1 cfg0.N : S6x16000x128.Idx → EReal)
              slices_S6x16000x128_S6x15625x128_0_0_0) shapeCasts_S6x15625x128_S6x2000000)
          transposes_S6x2000000_S2000000x6_1_0 := by
  have hw : Pipeline.withArrays spec0 c (V0 m c) (fun w => (dats m 0 c).arrAt w cfg0.N) (Proc.devRef .tc main_v4)
      = (dats m 0 c).arrAt 1 cfg0.N :=
    Pipeline.withArrays_arr spec0 launch0.win.arr_inj c (V0 m c) (fun w => (dats m 0 c).arrAt w cfg0.N) 1
  unfold Pipeline.afterTail₀
  show StableHlo.after hostOps1 _ (Proc.devRef .tc main_v7) = _
  after_results
  rw [hw]
  rfl

/-- The kernel's result at `(n, cc)` is output bit `cc` of the circuit on row `n` of the argument. -/
theorem result_apply (c : Dev nD) (n : Fin 2000000) (cc : Fin 6) :
    (Pipeline.afterTail₀ cfgs (dats m) 0 (V0 m) [hostOps1] c main_v7 : S2000000x6.Idx → EReal) (ix2 n cc)
      = spike (rowOf (m ((c : Thread nD τ).loc main_arg0)) n) cc := by
  have hn : n.val < 2000000 := n.isLt
  have hq : n.val / 128 < 15625 := by omega
  have hr : n.val % 128 < 128 := Nat.mod_lt _ (by norm_num)
  rw [tail_v7, transpose_ix2_apply,
    shapeCast_apply _ shapeCasts_S6x15625x128_S6x2000000 (ix2 cc n)
      (ix3 cc (⟨n.val / 128, hq⟩ : Fin 15625) (⟨n.val % 128, hr⟩ : Fin 128)) (by
        rw [Shape.rowMajor_val_three, Shape.rowMajor_val_two]
        show (cc.val * 15625 + n.val / 128) * 128 + n.val % 128 = cc.val * 2000000 + n.val
        omega),
    extractStridedSlice_apply ![0, 0, 0] _ slices_S6x16000x128_S6x15625x128_0_0_0
      (ix3 cc (⟨n.val / 128, hq⟩ : Fin 15625) (⟨n.val % 128, hr⟩ : Fin 128))
      (ix3 cc (⟨n.val / 128, by omega⟩ : Fin 16000) (⟨n.val % 128, hr⟩ : Fin 128)) (fun a =>
        match a with
        | ⟨0, _⟩ => (Nat.zero_add _).symm
        | ⟨1, _⟩ => (Nat.zero_add _).symm
        | ⟨2, _⟩ => (Nat.zero_add _).symm),
    final]
  unfold outArr
  refine congrFun (spike_congr fun k h1 h16 => ?_) cc
  show (if h : 1 ≤ k ∧ k ≤ 17 then ((V m c main_v3 : S17x16000x128.Idx → EReal)
      (ix3 (⟨k - 1, by omega⟩ : Fin 17) (⟨n.val / 128, by omega⟩ : Fin 16000) (⟨n.val % 128, hr⟩ : Fin 128)) : EReal)
    else (0 : EReal)) = _
  rw [dif_pos ⟨h1, by omega⟩, V_v3_apply m c _ _ _ hq]
  unfold rowOf
  rw [dif_pos (by omega : k < 64)]
  refine congrArg (m ((c : Thread nD τ).loc main_arg0)) ?_
  funext a
  apply Fin.ext
  match a with
  | ⟨0, _⟩ => show 128 * (n.val / 128) + n.val % 128 = n.val; omega
  | ⟨1, _⟩ => show k - 1 + 1 = k; omega

/-! ## The run, read -/

/-- The frame run re-posted: the result buffer at the circuit applied to every row of the argument, the argument
    unchanged. -/
theorem run : θ_run defs (onTc (τ := τ) (main (F := Ideal))) ⟨m, fun _ => 0, ρ⟩ fun r => ∀ c : Dev nD,
      r.2.mem ((c : Thread nD τ).loc main_v7) = spikeArr (m ((c : Thread nD τ).loc main_arg0))
      ∧ r.2.mem ((c : Thread nD τ).loc main_arg0) = m ((c : Thread nD τ).loc main_arg0) :=
  (θ_run defs _ _).mono (fun r h c =>
    ⟨((h c).2 main_v7 (Pipeline.mem_restRefs_of main_v7 (by decide) (by decide))).trans (funext fun j => by
        obtain ⟨n, cc, rfl⟩ : ∃ (n : Fin 2000000) (cc : Fin 6), j = ix2 n cc := ⟨j 0, j 1, eq_ix2 j⟩
        exact result_apply m c n cc),
      ((h c).2 main_arg0 (Pipeline.mem_restRefs_of main_arg0 (by decide) (by decide))).trans (W_main_arg0 m (dats m) c)⟩)
    (run_main m ρ)

end Cert.KernelIdeal.KerValue

end
-- ==== Proof.lean ====
/-
  The certificate of the bit-serial circuit kernel against its jnp reference.

  Each row of the `2000000 × 64` argument holds the 64 bits of a binary64 number as numbers. Both programs evaluate,
  on every row, one fixed arithmetic circuit over columns 1 to 16 (Proof/Circuit.lean: a ripple-carry subtraction of
  the exponent bias, a decoder of the shifts 0 … 5, and a selector of the six low bits of the integer part) and
  return its six output bits, most significant first, as a `2000000 × 6` array (`Cert.Spike.spikeArr`).

  * The reference computes on `2000000 × 1` columns, one StableHLO operation per gate (Proof/RefValue.lean, over the
    run of Proof/RefRun.lean).
  * The kernel transposes columns 1 to 17 into 17 planes of `15625 × 128` positions (row `128 g + l` at position
    `(g, l)`), pads to 16000 groups, and runs the same gates on `1000 × 128` tiles over a grid of 16 points; the six
    result planes are un-padded, flattened and transposed back (Proof/KerBody.lean for a tile, Proof/KerArray.lean for
    the blocks, the host lines around the region and the run).

  At the ideal instance the two results are the same function of the argument, `spikeArr`, with no law of arithmetic
  beyond `x * 1 = x`; in particular the equality needs no finiteness of the inputs. The three frames are the generated
  ones (the reference's is its run with the result dropped), and the idealization rewrote nothing, so `preserves`
  is trivial.
-/
import proofs.«112849_j29875792511523_2_alg».proof.Defs
import proofs.«112849_j29875792511523_2_alg».proof.Proof.Gen.Kernel
import proofs.«112849_j29875792511523_2_alg».proof.Proof.Gen.Kernel.Frame
import proofs.«112849_j29875792511523_2_alg».proof.Proof.Gen.KernelIdeal
import proofs.«112849_j29875792511523_2_alg».proof.Proof.Gen.KernelIdeal.Frame
import proofs.«112849_j29875792511523_2_alg».proof.Proof.Gen.ReferenceIdeal
import proofs.«112849_j29875792511523_2_alg».proof.Proof.Gen.Pre_finite_inputs
import proofs.«112849_j29875792511523_2_alg».proof.Proof.RefRun
import proofs.«112849_j29875792511523_2_alg».proof.Proof.RefValue
import proofs.«112849_j29875792511523_2_alg».proof.Proof.KerArray
import Idealize.ShloMosaic.Adequacy
import Idealize.ShloMosaic.Init

noncomputable section

namespace Cert.Proof

open Idealize.ShloMosaic Idealize.SL.Sem

/-- The word-level kernel runs and keeps its argument: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its argument: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its argument: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the argument, both idealized programs end with the circuit applied to every row of it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spike.spikeArr (m ((c.tc : Thread Cert.KernelIdeal.nD Cert.KernelIdeal.τ).loc Cert.KernelIdeal.main_arg0)),
    Cert.KernelIdeal.KerValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
